-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x2048x64 : Shape := ⟨4, ![2, 8, 2048, 64]⟩
abbrev S2x8x2048x2048 : Shape := ⟨4, ![2, 8, 2048, 2048]⟩
abbrev S2x1x2048x2048 : Shape := ⟨4, ![2, 1, 2048, 2048]⟩
abbrev S_ : Shape := ⟨0, ![]⟩

class Facts : Prop where
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2x8x2048x2048 : S_.BroadcastsInDim S2x8x2048x2048 (![] : Fin 0 → Fin S2x8x2048x2048.rank)
  reducesTo_S2x8x2048x2048_S_d0_1_2_3 : S2x8x2048x2048.ReducesTo [0, 1, 2, 3] S_

variable [Facts]

def fn_part1 {F : FTy → Type} [FloatOps F] (main_v13 : IVec S_ 1) (main_v16 : IVec S2x8x2048x2048 1) : IVec S_ 1 :=
  let main_c_5 : IVec S_ 1 := constantI S_ 1 1#1
  let main_v17 : IVec S_ 1 := (fun x v => Host.reduce IntOp.andi x v reducesTo_S2x8x2048x2048_S_d0_1_2_3 h_S_) main_v16 main_c_5
  let main_v18 : IVec S_ 1 := andi main_v13 main_v17
  main_v18

def fn {F : FTy → Type} [FloatOps F] (main_arg0 : FVec F S2x8x2048x64 .f32) (main_arg1 : FVec F S2x8x2048x64 .f32) (main_arg2 : FVec F S2x8x2048x64 .f32) (main_arg3 : FVec F S2x8x2048x2048 .f32) (main_arg4 : IVec S2x1x2048x2048 32) : IVec S_ 1 :=
  let main_v0 : FVec F S2x8x2048x64 .f32 := Host.absf main_arg0
  let main_cst : FVec F S_ .f32 := constant S_ .f32 0x7F800000#32
  let main_v1 : FVec F S2x8x2048x64 .f32 := broadcastInDim S2x8x2048x64 ![] bcast_S_S2x8x2048x64 main_cst
  let main_v2 : IVec S2x8x2048x64 1 := cmpf .olt main_v0 main_v1
  let main_c : IVec S_ 1 := constantI S_ 1 1#1
  let main_v3 : IVec S_ 1 := (fun x v => Host.reduce IntOp.andi x v reducesTo_S2x8x2048x64_S_d0_1_2_3 h_S_) main_v2 main_c
  let main_v4 : FVec F S2x8x2048x64 .f32 := Host.absf main_arg1
  let main_cst_0 : FVec F S_ .f32 := constant S_ .f32 0x7F800000#32
  let main_v5 : FVec F S2x8x2048x64 .f32 := broadcastInDim S2x8x2048x64 ![] bcast_S_S2x8x2048x64 main_cst_0
  let main_v6 : IVec S2x8x2048x64 1 := cmpf .olt main_v4 main_v5
  let main_c_1 : IVec S_ 1 := constantI S_ 1 1#1
  let main_v7 : IVec S_ 1 := (fun x v => Host.reduce IntOp.andi x v reducesTo_S2x8x2048x64_S_d0_1_2_3 h_S_) main_v6 main_c_1
  let main_v8 : IVec S_ 1 := andi main_v3 main_v7
  let main_v9 : FVec F S2x8x2048x64 .f32 := Host.absf main_arg2
  let main_cst_2 : FVec F S_ .f32 := constant S_ .f32 0x7F800000#32
  let main_v10 : FVec F S2x8x2048x64 .f32 := broadcastInDim S2x8x2048x64 ![] bcast_S_S2x8x2048x64 main_cst_2
  let main_v11 : IVec S2x8x2048x64 1 := cmpf .olt main_v9 main_v10
  let main_c_3 : IVec S_ 1 := constantI S_ 1 1#1
  let main_v12 : IVec S_ 1 := (fun x v => Host.reduce IntOp.andi x v reducesTo_S2x8x2048x64_S_d0_1_2_3 h_S_) main_v11 main_c_3
  let main_v13 : IVec S_ 1 := andi main_v8 main_v12
  let main_v14 : FVec F S2x8x2048x2048 .f32 := Host.absf main_arg3
  let main_cst_4 : FVec F S_ .f32 := constant S_ .f32 0x7F800000#32
  let main_v15 : FVec F S2x8x2048x2048 .f32 := broadcastInDim S2x8x2048x2048 ![] bcast_S_S2x8x2048x2048 main_cst_4
  let main_v16 : IVec S2x8x2048x2048 1 := cmpf .olt main_v14 main_v15
  fn_part1 (F := F) main_v13 main_v16
-- ==== Kernel.lean ====
abbrev S2x8x2048x64 : Shape := ⟨4, ![2, 8, 2048, 64]⟩
abbrev S2x8x2048x2048 : Shape := ⟨4, ![2, 8, 2048, 2048]⟩
abbrev S2x1x2048x2048 : Shape := ⟨4, ![2, 1, 2048, 2048]⟩
abbrev S1x1x256x2048 : Shape := ⟨4, ![1, 1, 256, 2048]⟩
abbrev S256x2048 : Shape := ⟨2, ![256, 2048]⟩
abbrev S256 : Shape := ⟨1, ![256]⟩
abbrev S256x1 : Shape := ⟨2, ![256, 1]⟩
abbrev S1x1x256x64 : Shape := ⟨4, ![1, 1, 256, 64]⟩
abbrev S1x1x2048x64 : Shape := ⟨4, ![1, 1, 2048, 64]⟩
abbrev S256x64 : Shape := ⟨2, ![256, 64]⟩
abbrev S2048x64 : Shape := ⟨2, ![2048, 64]⟩
abbrev S64x2048 : Shape := ⟨2, ![64, 2048]⟩

abbrev nBuf : Space → Nat
  | .hbm => 10
  | .vmem => 16
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S2x1x2048x2048, .i32⟩
  | .hbm, ⟨5, _⟩ => ⟨S2x8x2048x2048, .bf16⟩
  | .hbm, ⟨6, _⟩ => ⟨S2x8x2048x64, .bf16⟩
  | .hbm, ⟨7, _⟩ => ⟨S2x8x2048x64, .bf16⟩
  | .hbm, ⟨8, _⟩ => ⟨S2x8x2048x64, .bf16⟩
  | .hbm, ⟨9, _⟩ => ⟨S2x8x2048x64, .f32⟩
  | .local _ .vmem, ⟨0, _⟩ => ⟨S1x1x256x2048, .f32⟩
  | .local _ .vmem, ⟨1, _⟩ => ⟨S1x1x256x2048, .f32⟩
  | .local _ .vmem, ⟨2, _⟩ => ⟨S1x1x256x2048, .i32⟩
  | .local _ .vmem, ⟨3, _⟩ => ⟨S1x1x256x2048, .i32⟩
  | .local _ .vmem, ⟨4, _⟩ => ⟨S1x1x256x2048, .bf16⟩
  | .local _ .vmem, ⟨5, _⟩ => ⟨S1x1x256x2048, .bf16⟩
  | .local _ .vmem, ⟨6, _⟩ => ⟨S1x1x256x64, .bf16⟩
  | .local _ .vmem, ⟨7, _⟩ => ⟨S1x1x256x64, .bf16⟩
  | .local _ .vmem, ⟨8, _⟩ => ⟨S1x1x2048x64, .bf16⟩
  | .local _ .vmem, ⟨9, _⟩ => ⟨S1x1x2048x64, .bf16⟩
  | .local _ .vmem, ⟨10, _⟩ => ⟨S1x1x2048x64, .bf16⟩
  | .local _ .vmem, ⟨11, _⟩ => ⟨S1x1x2048x64, .bf16⟩
  | .local _ .vmem, ⟨12, _⟩ => ⟨S1x1x256x2048, .bf16⟩
  | .local _ .vmem, ⟨13, _⟩ => ⟨S1x1x256x2048, .bf16⟩
  | .local _ .vmem, ⟨14, _⟩ => ⟨S1x1x256x64, .f32⟩
  | .local _ .vmem, ⟨15, _⟩ => ⟨S1x1x256x64, .f32⟩
  | _, _ => ⟨S2x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![2, 8, 8], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

class Facts₀ : Prop where
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  reduces_S256x2048_S256 : S256x2048.Reduces [1] S256
  shapeCasts_S256_S256x1 : S256.ShapeCasts S256x1
  broadcasts_S256x1_S256x2048 : S256x1.Broadcasts S256x2048
  bitsLt_bf16_f32 : FTy.bits .bf16 < FTy.bits .f32
  shapeCasts_S256x2048_S1x1x256x2048 : S256x2048.ShapeCasts S1x1x256x2048
  packedbf16_S1x1x256x2048_S1x1x256x2048_0_0_0_0 : (Rect.unit (s := S1x1x256x2048) ![0, 0, 0, 0] S1x1x256x2048.size inb_S1x1x256x2048_S1x1x256x2048_0_0_0_0).PackedRows (EltTy.packing .bf16)
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x2048.size a ≤ S2x8x2048x2048.size a
  hwx0_0 : ∀ i : grid0.Coords, EltTy.bits .f32 = 32 ∨ (Rect.block (s := S2x8x2048x2048) S1x1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256x2048.size a ≤ S2x1x2048x2048.size a
  hwx0_1 : ∀ i : grid0.Coords, EltTy.bits .i32 = 32 ∨ (Rect.block (s := S2x1x2048x2048) S1x1x256x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256x2048.size a ≤ S2x8x2048x2048.size a
  hwx0_2 : ∀ i : grid0.Coords, EltTy.bits .bf16 = 32 ∨ (Rect.block (s := S2x8x2048x2048) S1x1x256x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x64.size a ≤ S2x8x2048x64.size a
  hwx1_0 : ∀ i : grid1.Coords, EltTy.bits .bf16 = 32 ∨ (Rect.block (s := S2x8x2048x64) S1x1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x8x2048x64.size a
  hwx1_1 : ∀ i : grid1.Coords, EltTy.bits .bf16 = 32 ∨ (Rect.block (s := S2x8x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x8x2048x64.size a
  hwx1_2 : ∀ i : grid1.Coords, EltTy.bits .bf16 = 32 ∨ (Rect.block (s := S2x8x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256x2048.size a ≤ S2x8x2048x2048.size a
  hwx1_3 : ∀ i : grid1.Coords, EltTy.bits .bf16 = 32 ∨ (Rect.block (s := S2x8x2048x2048) S1x1x256x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x256x64.size a ≤ S2x8x2048x64.size a
  hwx1_4 : ∀ i : grid1.Coords, EltTy.bits .f32 = 32 ∨ (Rect.block (s := S2x8x2048x64) S1x1x256x64.size (cc1_transform_4 i) (hinb1_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg3) S1x1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1x1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1x256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x8x2048x64 : Shape := ⟨4, ![2, 8, 2048, 64]⟩
abbrev S2x8x2048x2048 : Shape := ⟨4, ![2, 8, 2048, 2048]⟩
abbrev S2x1x2048x2048 : Shape := ⟨4, ![2, 1, 2048, 2048]⟩
abbrev S_ : Shape := ⟨0, ![]⟩
abbrev S2x8x2048 : Shape := ⟨3, ![2, 8, 2048]⟩
abbrev S2x8x2048x1 : Shape := ⟨4, ![2, 8, 2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2x8x2048x64, .f32⟩
  | .hbm, ⟨1, _⟩ => ⟨S2x8x2048x64, .f32⟩
  | .hbm, ⟨2, _⟩ => ⟨S2x8x2048x64, .f32⟩
  | .hbm, ⟨3, _⟩ => ⟨S2x8x2048x2048, .f32⟩
  | .hbm, ⟨4, _⟩ => ⟨S2x1x2048x2048, .i32⟩
  | .hbm, ⟨5, _⟩ => ⟨S2x8x2048x2048, .f32⟩
  | .hbm, ⟨6, _⟩ => ⟨S_, .f32⟩
  | .hbm, ⟨7, _⟩ => ⟨S2x8x2048x2048, .f32⟩
  | .hbm, ⟨8, _⟩ => ⟨S2x8x2048x2048, .f32⟩
  | .hbm, ⟨9, _⟩ => ⟨S_, .i32⟩
  | .hbm, ⟨10, _⟩ => ⟨S2x1x2048x2048, .i32⟩
  | .hbm, ⟨11, _⟩ => ⟨S2x1x2048x2048, .i1⟩
  | .hbm, ⟨12, _⟩ => ⟨S_, .f32⟩
  | .hbm, ⟨13, _⟩ => ⟨S2x8x2048x2048, .i1⟩
  | .hbm, ⟨14, _⟩ => ⟨S2x8x2048x2048, .f32⟩
  | .hbm, ⟨15, _⟩ => ⟨S2x8x2048x2048, .f32⟩
  | .hbm, ⟨16, _⟩ => ⟨S_, .f32⟩
  | .hbm, ⟨17, _⟩ => ⟨S2x8x2048, .f32⟩
  | .hbm, ⟨18, _⟩ => ⟨S_, .f32⟩
  | .hbm, ⟨19, _⟩ => ⟨S2x8x2048, .f32⟩
  | .hbm, ⟨20, _⟩ => ⟨S2x8x2048, .f32⟩
  | .hbm, ⟨21, _⟩ => ⟨S2x8x2048x1, .f32⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S_, .f32⟩
  | .hbm, ⟨26, _⟩ => ⟨S2x8x2048, .f32⟩
  | .hbm, ⟨27, _⟩ => ⟨S2x8x2048x1, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S_, .f32⟩
  | .hbm, ⟨34, _⟩ => ⟨S2x8x2048, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x8x2048x64, .f32⟩
  | _, _ => ⟨S2x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  bcast_S_S2x1x2048x2048 : S_.BroadcastsInDim S2x1x2048x2048 (![] : Fin 0 → Fin S2x1x2048x2048.rank)
  bcast_S2x1x2048x2048_S2x8x2048x2048_0_1_2_3 : S2x1x2048x2048.BroadcastsInDim S2x8x2048x2048 (![0, 1, 2, 3] : Fin 4 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  dot_S2x8x2048x64_S2x8x2048x64_S2x8x2048x2048_3_3_2_2_01_01_wf : DotDims.WF S2x8x2048x64 S2x8x2048x64 S2x8x2048x2048 [3] [3] [2] [2] [0, 1] [0, 1]
  dot_S2x8x2048x2048_S2x8x2048x64_S2x8x2048x64_3_2_2_3_01_01_wf : DotDims.WF S2x8x2048x2048 S2x8x2048x64 S2x8x2048x64 [3] [2] [2] [3] [0, 1] [0, 1]

variable [Facts₀]

def dot_S2x8x2048x64_S2x8x2048x64_S2x8x2048x2048_3_3_2_2_01_01 : DotDims S2x8x2048x64 S2x8x2048x64 S2x8x2048x2048 where
  lhsContracting := [3]
  rhsContracting := [3]
  lhsNonContracting := [2]
  rhsNonContracting := [2]
  lhsBatch := [0, 1]
  rhsBatch := [0, 1]
  wf := dot_S2x8x2048x64_S2x8x2048x64_S2x8x2048x2048_3_3_2_2_01_01_wf
def dot_S2x8x2048x2048_S2x8x2048x64_S2x8x2048x64_3_2_2_3_01_01 : DotDims S2x8x2048x2048 S2x8x2048x64 S2x8x2048x64 where
  lhsContracting := [3]
  rhsContracting := [2]
  lhsNonContracting := [2]
  rhsNonContracting := [3]
  lhsBatch := [0, 1]
  rhsBatch := [0, 1]
  wf := dot_S2x8x2048x2048_S2x8x2048x64_S2x8x2048x64_3_2_2_3_01_01_wf

class Facts : Prop extends Facts₀ where

variable [Facts]
-- ==== Proof.KernelRun.lean ====
/-
  The kernel program's run with its result named.

  The program is two kernel regions around three host conversions. Its generated frame follows the TensorCore's buffer
  contents through the run as a fold `W0 → W1 → W2 → W3` (launch, after the bias region, after the conversions, after the
  attention region) and ends with every unscoped buffer at `W3`. Read at the result buffer as well as at the arguments,
  the same run says: every weakly fair execution terminates with the result at `W3`'s contents of it.
-/
import proofs.«126612_j17738214933127_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents of it and the argument arrays as launched: the launch over the program's three segments,
    the last thread state read at the result as well as at the arguments. -/
theorem run_named : θ_run defs (onTc (τ := τ) (main (F := F))) ⟨m, fun _ => 0, ρ⟩ (fun r => ∀ c : Dev nD,
      r.2.mem ((c.tc : Thread nD τ).loc main_v4) = W3 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v4 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.RunValue

end
-- ==== Proof.Spec.lean ====
/-
  Masked-bias attention on the extended reals: the function both programs compute.

  For a batch `b`, a head `h` and a query position `q`:
    * the structure scores of the row, `str (b, h, q, ·)`, are replaced by the constant `-1e9` wherever the mask
      `mask (b, 0, q, ·)` is zero, and the row is normalised by a softmax over the key positions: the BIAS row;
    * the attention scores of the row are the inner products of the query with every key, scaled, plus the bias row;
      their softmax weights the values.
  A softmax here is exactly what the two programs spell: the row minus its maximum (the fold of `max` from `-∞`),
  exponentiated, divided by the sum of the exponentials. Two spellings of the scale meet in `div_eight`: a quotient by
  `8` is the product with `1/8` on every extended real. The reference takes one more maximum against `-∞` and starts
  its sums at `0`: `max_negInf`, `zero_word`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Queries, keys, values and the result: batch × head × position × feature. -/
abbrev SQ : Shape := ⟨4, ![2, 8, 2048, 64]⟩
/-- Structure scores, bias and attention scores: batch × head × query × key. -/
abbrev SS : Shape := ⟨4, ![2, 8, 2048, 2048]⟩
/-- The mask: batch × one × query × key (shared by the heads). -/
abbrev SM : Shape := ⟨4, ![2, 1, 2048, 2048]⟩

/-- A row's maximum: the fold of `max` over the row from the word of `-∞`. -/
def rowMax (r : Fin 2048 → EReal) : EReal :=
  (Finset.univ : Finset (Fin 2048)).fold max (Ideal.ofBits .f32 0xFF800000#32) r

/-- The softmax of a row at position `k`. -/
def soft (r : Fin 2048 → EReal) (k : Fin 2048) : EReal :=
  Ideal.div (Ideal.exp (r k - rowMax r)) (∑ k' : Fin 2048, Ideal.exp (r k' - rowMax r))

/-- A structure score under its mask word: `-1e9` where the word is zero. -/
def masked (mk : BitVec 32) (s : EReal) : EReal :=
  Scalar.select (IntOp.cmpi .eq mk 0#32) (Ideal.ofBits .f32 0xCE6E6B28#32) s

/-- The bias row: softmax of the masked structure scores of a row. -/
def biasRow (srow : Fin 2048 → EReal) (mrow : Fin 2048 → BitVec 32) (k : Fin 2048) : EReal :=
  soft (fun k' => masked (mrow k') (srow k')) k

/-- The attention scores of one query row against every key: scaled inner products plus the bias row. -/
def scoreRow (qrow : Fin 64 → EReal) (K : Fin 2048 → Fin 64 → EReal) (brow : Fin 2048 → EReal) (k : Fin 2048) : EReal :=
  (∑ d : Fin 64, qrow d * K k d) * Ideal.ofBits .f32 0x3E000000#32 + brow k

/-- The attention output of one query row at feature `d`: the softmax of its scores weighting the values. -/
def attnRow (qrow : Fin 64 → EReal) (K V : Fin 2048 → Fin 64 → EReal) (brow : Fin 2048 → EReal) (d : Fin 64) : EReal :=
  ∑ k : Fin 2048, soft (scoreRow qrow K brow) k * V k d

/-- The bias array from the structure scores and the mask. -/
def bias (str : SS.Idx → EReal) (mask : SM.Idx → BitVec 32) : SS.Idx → EReal := fun i =>
  biasRow (fun k' => str (ix4 (i 0) (i 1) (i 2) k')) (fun k' => mask (ix4 (i 0) (0 : Fin 1) (i 2) k')) (i 3)

/-- The attention array from queries, keys, values and a bias array. -/
def attn (Q K V : SQ.Idx → EReal) (B : SS.Idx → EReal) : SQ.Idx → EReal := fun i =>
  attnRow (fun d => Q (ix4 (i 0) (i 1) (i 2) d)) (fun k d => K (ix4 (i 0) (i 1) k d)) (fun k d => V (ix4 (i 0) (i 1) k d))
    (fun k => B (ix4 (i 0) (i 1) (i 2) k)) (i 3)

/-- The whole function: attention under the bias of the masked structure scores. -/
def result (Q K V : SQ.Idx → EReal) (str : SS.Idx → EReal) (mask : SM.Idx → BitVec 32) : SQ.Idx → EReal :=
  attn Q K V (bias str mask)

/-! ## The words -/

/-- The word `0xFF800000` denotes `-∞`, the bottom of the extended reals. -/
theorem negInf_word : Ideal.ofBits .f32 0xFF800000#32 = (⊥ : EReal) := by
  simp [Ideal.ofBits, Ideal.ieee]

/-- A maximum against `-∞` changes nothing. -/
theorem max_negInf (x : EReal) : max (Ideal.ofBits .f32 0xFF800000#32) x = x := by
  rw [negInf_word]; exact max_bot_left x

/-- The word `0x00000000` denotes `0`. -/
theorem zero_word : Ideal.ofBits .f32 0x00000000#32 = (0 : EReal) := Ideal.ofBits_zero_f32

/-- `8.0` denotes the real `8`. -/
theorem eight_word : Ideal.ofBits .f32 0x41000000#32 = ((8 : ℝ) : EReal) := by
  simp [Ideal.ofBits, Ideal.ieee, -EReal.coe_mul]; norm_num

/-- `0.125` denotes the real `1/8`. -/
theorem eighth_word : Ideal.ofBits .f32 0x3E000000#32 = ((1 / 8 : ℝ) : EReal) := by
  simp [Ideal.ofBits, Ideal.ieee, -EReal.coe_mul]; norm_num

/-- A quotient by `8.0` is the product with `0.125`, on every extended real. -/
theorem div_eight (x : EReal) :
    Ideal.div x (Ideal.ofBits .f32 0x41000000#32) = x * Ideal.ofBits .f32 0x3E000000#32 := by
  rw [eight_word, eighth_word, Ideal.div_coe (by norm_num : (8 : ℝ) ≠ 0)]

end Cert.Spec

end
-- ==== Proof.KernelFold.lean ====
/-
  The kernel program's result as a function of its arguments, at the ideal values.

  The run's fold of buffer contents is read back at the result buffer. The attention region leaves its output array
  at the attention function of its four input arrays as it finds them; three of those (queries, keys, values) were
  written by the host conversions between the regions, which change the float format only and are the identity on
  extended reals, from arguments no region writes; the fourth (the bias) no conversion touches: it is what the bias
  region left, the bias function of the structure scores and the mask as launched. What each region leaves in its
  output array, as a function of the contents it is entered with, is taken here as a hypothesis (`hbias`, `hattn`).
-/
import proofs.«126612_j17738214933127_1_alg».proof.Proof.Gen.KernelIdeal.Frame
import proofs.«126612_j17738214933127_1_alg».proof.Proof.Spec
import Idealize.ShloMosaic.Lib.StableHlo.Run

set_option maxRecDepth 16384

noncomputable section

namespace Cert.KernelIdeal.RunValue

open Cert.KernelIdeal Cert.KernelIdeal.Gen
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg)

/-- The queries the attention region finds are the first argument: its conversion is the identity at the ideal
    values, and the bias region does not write the argument. -/
theorem queries_at (c : Dev nD) :
    (V2 (F := Ideal) m ρ c main_v1 : Cert.Spec.SQ.Idx → EReal) = m ((c : Thread nD τ).loc main_arg0) := by
  show StableHlo.after hostOps1 (W1 m ρ c) (Proc.devRef .tc main_v1) = _
  after_results
  exact W1_of_ne m ρ c main_arg0 (by decide)

/-- The keys it finds are the second argument. -/
theorem keys_at (c : Dev nD) :
    (V2 (F := Ideal) m ρ c main_v2 : Cert.Spec.SQ.Idx → EReal) = m ((c : Thread nD τ).loc main_arg1) := by
  show StableHlo.after hostOps1 (W1 m ρ c) (Proc.devRef .tc main_v2) = _
  after_results
  exact W1_of_ne m ρ c main_arg1 (by decide)

/-- The values it finds are the third argument. -/
theorem values_at (c : Dev nD) :
    (V2 (F := Ideal) m ρ c main_v3 : Cert.Spec.SQ.Idx → EReal) = m ((c : Thread nD τ).loc main_arg2) := by
  show StableHlo.after hostOps1 (W1 m ρ c) (Proc.devRef .tc main_v3) = _
  after_results
  exact W1_of_ne m ρ c main_arg2 (by decide)

/-- The bias it finds is what the bias region left in its output array: no conversion writes that buffer. -/
theorem bias_at (c : Dev nD) :
    V2 (F := Ideal) m ρ c main_v0 = (dat0 (V0 m ρ) c).arrAt 2 cfg0.N := by
  show StableHlo.after hostOps1 (W1 m ρ c) (Proc.devRef .tc main_v0) = _
  after_results
  exact W1_arr m ρ c 2

/-- The result buffer at the end of the run: attention of the three float arguments under the bias of the structure
    scores and the mask. -/
theorem result_at
    (hbias : ∀ (V : (c : Dev nD) → (b : Ref sig .tc) → Buf (Elt Ideal) ((c : Thread nD τ).loc b)) (c : Dev nD),
      (dat0 (F := Ideal) V c).arrAt 2 cfg0.N = Cert.Spec.bias (V c main_arg3) (V c main_arg4))
    (hattn : ∀ (V : (c : Dev nD) → (b : Ref sig .tc) → Buf (Elt Ideal) ((c : Thread nD τ).loc b)) (c : Dev nD),
      (dat1 (F := Ideal) V c).arrAt 4 cfg1.N = Cert.Spec.attn (V c main_v1) (V c main_v2) (V c main_v3) (V c main_v0))
    (c : Dev nD) :
    W3 (F := Ideal) m ρ c (Proc.devRef .tc main_v4)
      = Cert.Spec.result (m ((c : Thread nD τ).loc main_arg0)) (m ((c : Thread nD τ).loc main_arg1))
          (m ((c : Thread nD τ).loc main_arg2)) (m ((c : Thread nD τ).loc main_arg3)) (m ((c : Thread nD τ).loc main_arg4)) := by
  refine (W3_arr m ρ c 4).trans ((hattn (V2 m ρ) c).trans ?_)
  rw [queries_at m ρ c, keys_at m ρ c, values_at m ρ c, bias_at m ρ c, hbias (V0 m ρ) c]
  rfl

end Cert.KernelIdeal.RunValue

end
-- ==== Proof.Algebraic.lean ====
/-
  The two idealized programs end with equal results.

  From memories that agree on the five arguments, the kernel program's result is the attention function of the
  arguments (its run with the result named, and the fold read back), and the reference's result is its generated run's
  term, which is the same function. Three facts are taken as hypotheses here and supplied by the assembly: what each
  kernel region leaves in its output array as a function of the contents it is entered with, and that the reference's
  last stage is the attention function.
-/
import proofs.«126612_j17738214933127_1_alg».proof.Defs
import proofs.«126612_j17738214933127_1_alg».proof.Proof.Gen.KernelIdeal
import proofs.«126612_j17738214933127_1_alg».proof.Proof.Gen.ReferenceIdeal
import proofs.«126612_j17738214933127_1_alg».proof.Proof.Gen.Pre_finite_inputs
import proofs.«126612_j17738214933127_1_alg».proof.Proof.Gen.ReferenceIdeal.Run
import proofs.«126612_j17738214933127_1_alg».proof.Proof.Gen.ReferenceIdeal.Read
import proofs.«126612_j17738214933127_1_alg».proof.Proof.KernelRun
import proofs.«126612_j17738214933127_1_alg».proof.Proof.KernelFold
import proofs.«126612_j17738214933127_1_alg».proof.Proof.Spec

noncomputable section

namespace Cert.Proof

open Idealize.ShloMosaic Idealize.ShloMosaic.TcCoe Idealize.SL.Sem
open Idealize.ShloMosaic.Pipeline (Dat)

/-- The algebraic claim, from the regions' array values and the reference's value. -/
theorem algebraic_of
    (hbias : ∀ (V : (c : Dev Cert.KernelIdeal.nD) → (b : Ref Cert.KernelIdeal.sig .tc) → Buf (Elt Ideal) ((c : Thread Cert.KernelIdeal.nD Cert.KernelIdeal.τ).loc b))
        (c : Dev Cert.KernelIdeal.nD),
      (Cert.KernelIdeal.Gen.dat0 (F := Ideal) V c).arrAt 2 Cert.KernelIdeal.cfg0.N
        = Cert.Spec.bias (V c Cert.KernelIdeal.main_arg3) (V c Cert.KernelIdeal.main_arg4))
    (hattn : ∀ (V : (c : Dev Cert.KernelIdeal.nD) → (b : Ref Cert.KernelIdeal.sig .tc) → Buf (Elt Ideal) ((c : Thread Cert.KernelIdeal.nD Cert.KernelIdeal.τ).loc b))
        (c : Dev Cert.KernelIdeal.nD),
      (Cert.KernelIdeal.Gen.dat1 (F := Ideal) V c).arrAt 4 Cert.KernelIdeal.cfg1.N
        = Cert.Spec.attn (V c Cert.KernelIdeal.main_v1) (V c Cert.KernelIdeal.main_v2) (V c Cert.KernelIdeal.main_v3) (V c Cert.KernelIdeal.main_v0))
    (href : ∀ (x0 x1 x2 : (⟨Cert.ReferenceIdeal.S2x8x2048x64, .f32⟩ : BufTy).Contents (Elt Ideal))
        (x3 : (⟨Cert.ReferenceIdeal.S2x8x2048x2048, .f32⟩ : BufTy).Contents (Elt Ideal))
        (x4 : (⟨Cert.ReferenceIdeal.S2x1x2048x2048, .i32⟩ : BufTy).Contents (Elt Ideal)),
      Cert.ReferenceIdeal.Read.val_main_v29 (F := Ideal) x0 x1 x2 x3 x4 = Cert.Spec.result x0 x1 x2 x3 x4) :
    @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.RunValue.result_at m ρ hbias hattn c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, href, (hagree c).1, (hagree c).2.1, (hagree c).2.2.1, (hagree c).2.2.2.1,
      (hagree c).2.2.2.2]

end Cert.Proof

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.RowOps.lean ====
/-
  Rows of a matrix read at an index.

  Three things about an `a×b` matrix that both kernel bodies use. A block with two leading unit axes, `[1, 1, a, b]`,
  and its matrix `[a, b]` have the same entries: the cast either way reads `(0, 0, i, j)` at `(i, j)`. The maximum of
  each row, kept as a column `[a] → [a, 1]` and spread back over the row's `n` positions, reads at `(p, c)` the fold of
  `max` over row `p` from the accumulator's value, whatever `c`. And the softmax along the rows of a 256×2048 matrix —
  subtract the row's maximum, exponentiate, divide by the row's sum of exponentials — reads at `(p, c)` the softmax of
  row `p` at position `c`.
-/
import proofs.«126612_j17738214933127_1_alg».proof.Proof.Spec
import proofs.«126612_j17738214933127_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

variable {α : Type}

/-! ## Two leading unit axes dropped or added -/

/-- A `[1, 1, a, b]` array cast to `[a, b]` reads, at `(i, j)`, the operand at `(0, 0, i, j)`: both positions are
    `i * b + j` in row-major order. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- An `[a, b]` array cast to `[1, 1, a, b]` reads, at `(u, v, i, j)`, the operand at `(i, j)`: the two unit
    coordinates are zero and add nothing to the row-major position. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

/-! ## A row's maximum -/

/-- A lane maximum of a matrix over its columns (axis 1), at row `p`: the fold of `max` over that row from the
    accumulator's value. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (funext fun ax => Fin.ext (by
        match ax with
        | ⟨0, _⟩ => rfl
        | ⟨1, _⟩ => rfl))))

/-- The row maxima of an `M×K` matrix, kept as a column and broadcast over `N` columns, at `(p, c)`: the maximum of
    row `p`, the same for every `c`. -/
theorem rowMax_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.maximumf.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .maximumf [1] ⟨1, ![M]⟩ src acc h hφ hacc) hc) hb (ix2 p c)
      = (Finset.univ : Finset (Fin K)).fold max (Ideal.ofBits φ acc) (fun k => src (ix2 p k)) :=
  (Cert.Keepdims.broadcastTo_a1_ab_apply _ hb p c).trans
    ((Cert.Keepdims.shapeCast_a_a1_apply _ hc p 0).trans (max_axis1_apply src acc h hφ hacc p))

/-! ## The softmax along the rows of a 256×2048 matrix -/

/-- The softmax chain of a 256×2048 matrix `A` at `(p, c)`. The chain takes each row's maximum, keeps it as a column and
    spreads it over the row, subtracts it and exponentiates; then takes each row's sum of those exponentials, keeps and
    spreads it the same way, and divides. At `(p, c)` the subtracted value is the maximum of row `p` and the divisor is
    the sum over row `p`, so the entry is the softmax of row `p` at position `c`. -/
theorem softmax_rows_apply (A : FVec Ideal (⟨2, ![256, 2048]⟩ : Shape) .f32)
    (h : (⟨2, ![256, 2048]⟩ : Shape).Reduces [1] ⟨1, ![256]⟩)
    (hφ : FKind.Formats .f32) (hmax : (0xFF800000#32 : BitVec (FTy.bits .f32)) = FKind.maximumf.neutral .f32 hφ)
    (hφ' : FKind.Formats .f32) (hadd : (0x00000000#32 : BitVec (FTy.bits .f32)) = FKind.add.neutral .f32 hφ')
    (hc : (⟨1, ![256]⟩ : Shape).ShapeCasts ⟨2, ![256, 1]⟩) (hb : (⟨2, ![256, 1]⟩ : Shape).Broadcasts ⟨2, ![256, 2048]⟩)
    (p : Fin 256) (c : Fin 2048) :
    divf
        (exp (subf A (broadcastTo ⟨2, ![256, 2048]⟩ (shapeCast ⟨2, ![256, 1]⟩
          (multiReduction .maximumf [1] ⟨1, ![256]⟩ A 0xFF800000#32 h hφ hmax) hc) hb)))
        (broadcastTo ⟨2, ![256, 2048]⟩ (shapeCast ⟨2, ![256, 1]⟩
          (multiReduction .add [1] ⟨1, ![256]⟩
            (exp (subf A (broadcastTo ⟨2, ![256, 2048]⟩ (shapeCast ⟨2, ![256, 1]⟩
              (multiReduction .maximumf [1] ⟨1, ![256]⟩ A 0xFF800000#32 h hφ hmax) hc) hb)))
            0x00000000#32 h hφ' hadd) hc) hb)
        (ix2 p c)
      = Cert.Spec.soft (fun k => A (ix2 p k)) c := by
  -- the exponentials of the shifted row, entry by entry
  have hE : ∀ k : Fin 2048,
      exp (subf A (broadcastTo ⟨2, ![256, 2048]⟩ (shapeCast ⟨2, ![256, 1]⟩
          (multiReduction .maximumf [1] ⟨1, ![256]⟩ A 0xFF800000#32 h hφ hmax) hc) hb)) (ix2 p k)
        = Ideal.exp (A (ix2 p k) - Cert.Spec.rowMax (fun k' => A (ix2 p k'))) := fun k =>
    congrArg (fun t : EReal => Ideal.exp (A (ix2 p k) - t)) (rowMax_keep_bcast_apply A _ h hφ hmax hc hb p k)
  -- the divisor is the sum of those exponentials over the row
  have hB := Cert.Keepdims.rowSum_keep_bcast_apply
    (exp (subf A (broadcastTo ⟨2, ![256, 2048]⟩ (shapeCast ⟨2, ![256, 1]⟩
      (multiReduction .maximumf [1] ⟨1, ![256]⟩ A 0xFF800000#32 h hφ hmax) hc) hb)))
    0x00000000#32 h hφ' hadd hc hb p c
  exact congrArg₂ Ideal.div (hE c) (hB.trans (Finset.sum_congr rfl fun k _ => hE k))

end Cert.RowOps

end
-- ==== Proof.BiasBlock.lean ====
/-
  The bias kernel's block at an index: row `r` of the 256×2048 block is the softmax, over the 2048 key positions, of
  that row's structure scores with `-1e9` written wherever the row's mask word is zero.
-/
import proofs.«126612_j17738214933127_1_alg».proof.Proof.Gen.KernelIdeal.Skeleton
import proofs.«126612_j17738214933127_1_alg».proof.Proof.Spec
import proofs.«126612_j17738214933127_1_alg».proof.Proof.LibPlainDot
import proofs.«126612_j17738214933127_1_alg».proof.Proof.LibKeepdims
import proofs.«126612_j17738214933127_1_alg».proof.Proof.RowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx

/-- The stored block of the bias kernel at row `r`, key `k`: the bias row of the loaded rows. -/
theorem bias_block (x0 : Vec Ideal S1x1x256x2048 .f32) (x1 : Vec Ideal S1x1x256x2048 .i32) (r : Fin 256) (k : Fin 2048) :
    k0_pay1 (F := Ideal) x0 x1 (ix4 (0 : Fin 1) (0 : Fin 1) r k)
      = Cert.Spec.biasRow (fun k' => x0 (ix4 (0 : Fin 1) (0 : Fin 1) r k')) (fun k' => x1 (ix4 (0 : Fin 1) (0 : Fin 1) r k')) k := by
  unfold k0_pay1
  -- the stored block is the matrix of softmax weights under two unit axes
  refine (Cert.RowOps.shapeCast_ab_11ab_apply _ shapeCasts_S256x2048_S1x1x256x2048 0 0 r k).trans ?_
  -- the weights are the softmax along the rows of the masked structure scores (the narrowing is the identity here)
  refine (Cert.RowOps.softmax_rows_apply
    (select (cmpi .eq (shapeCast S256x2048 x1 shapeCasts_S1x1x256x2048_S256x2048) (broadcast S256x2048 0#32))
      (broadcast S256x2048 (Scalar.ofBits .f32 0xCE6E6B28#32))
      (shapeCast S256x2048 x0 shapeCasts_S1x1x256x2048_S256x2048))
    reduces_S256x2048_S256 (.inl rfl) rfl (.inl rfl) rfl shapeCasts_S256_S256x1 broadcasts_S256x1_S256x2048 r k).trans ?_
  -- row `r` of the masked scores, entry by entry: the select reads the mask word and the score of the same position
  exact congrArg (fun row : Fin 2048 → EReal => Cert.Spec.soft row k) (funext fun k' =>
    congrArg₂ (fun (m : BitVec 32) (s : EReal) => Cert.Spec.masked m s)
      (Cert.RowOps.shapeCast_11ab_ab_apply x1 shapeCasts_S1x1x256x2048_S256x2048 r k')
      (Cert.RowOps.shapeCast_11ab_ab_apply x0 shapeCasts_S1x1x256x2048_S256x2048 r k'))

end Cert.KernelIdeal.Blocks

end
-- ==== Proof.BlockIndex.lean ====
/-
  Two facts about the indices of a block with two leading unit axes, used by both regions: the block's zero offsets,
  spelt as a literal vector, are the zero function; and an index of a [1, 1, m, n] block is its row and its column.
-/
import Idealize.ShloMosaic.Lib.ValueIdx

namespace Cert.BlockIndex

open Idealize.ShloMosaic Idealize.ShloMosaic.ValueIdx

/-- Four zero offsets, however they are spelt. -/
theorem four_zeros : (![0, 0, 0, 0] : Fin 4 → Nat) = fun _ => 0 := funext fun a => by fin_cases a <;> rfl

/-- An index of a block with two leading unit axes is its row and its column: the two leading coordinates can only be 0. -/
theorem unit_block_split {m n : Nat} (y : (⟨4, ![1, 1, m, n]⟩ : Shape).Idx) :
    ∃ (r : Fin m) (k : Fin n), y = ix4 (0 : Fin 1) (0 : Fin 1) r k :=
  ⟨y 2, y 3, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl⟩

end Cert.BlockIndex
-- ==== Proof.BiasArray.lean ====
/-
  From blocks to the array, for the bias region. The region walks a 2 × 8 × 8 grid of (batch, head, query tile). At a
  point it reads the 256 × 2048 block of structure scores of that (batch, head, tile) and the block of mask words of that
  (batch, tile) — the mask has one head —, and writes the 256 × 2048 block of the bias array at the same (batch, head,
  tile). Row `r` of a block is row `tile · 256 + r` of its array, so the block a point writes is that point's block of
  ONE function of the whole arrays, the bias of the scores under the mask; and every row `q` lies in the block of tile
  `q / 256`, so the blocks fill the array, which therefore ends holding that function.
-/
import proofs.«126612_j17738214933127_1_alg».proof.Proof.Gen.KernelIdeal.Frame
import proofs.«126612_j17738214933127_1_alg».proof.Proof.Spec
import proofs.«126612_j17738214933127_1_alg».proof.Proof.BiasBlock
import proofs.«126612_j17738214933127_1_alg».proof.Proof.BlockIndex
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.BlockIndex (four_zeros unit_block_split)

/-! ## The bias region: where each window's block sits -/

/-- The three index maps over the 2 × 8 × 8 grid, point by point: the output's block is (batch, head, query tile, 0), the
    scores' block is the same, the mask's is (batch, 0, query tile, 0); and the point numbered `t` is batch `t / 64`,
    head `t / 8 % 8`, query tile `t % 8`. -/
theorem bias_index_facts : ∀ t : Fin cfg0.N,
    win0_2.index t (0 : Fin 4) < 2 ∧ win0_2.index t (1 : Fin 4) < 8 ∧ win0_2.index t (2 : Fin 4) < 8 ∧ win0_2.index t (3 : Fin 4) = 0
    ∧ win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (0 : Fin 4) = t.val / 64 ∧ win0_2.index t (1 : Fin 4) = t.val / 8 % 8 ∧ win0_2.index t (2 : Fin 4) = t.val % 8 :=
  (by decide +kernel : ∀ t : Fin grid0.N, _)

/-- A bias block whose rows are rows of the score and mask arrays holds the bias function of those arrays at that row. -/
theorem bias_of_rows (str : Cert.Spec.SS.Idx → EReal) (mask : Cert.Spec.SM.Idx → BitVec 32)
    (x0 : Vec Ideal S1x1x256x2048 .f32) (x1 : Vec Ideal S1x1x256x2048 .i32)
    (b : Fin 2) (h : Fin 8) (q : Fin 2048) (r : Fin 256) (k : Fin 2048)
    (h0 : ∀ k' : Fin 2048, x0 (ix4 (0 : Fin 1) (0 : Fin 1) r k') = str (ix4 b h q k'))
    (h1 : ∀ k' : Fin 2048, x1 (ix4 (0 : Fin 1) (0 : Fin 1) r k') = mask (ix4 b (0 : Fin 1) q k')) :
    k0_pay1 (F := Ideal) x0 x1 (ix4 (0 : Fin 1) (0 : Fin 1) r k) = Cert.Spec.bias str mask (ix4 b h q k) := by
  refine (bias_block x0 x1 r k).trans ?_
  show Cert.Spec.biasRow _ _ k = Cert.Spec.biasRow (fun k' => str (ix4 b h q k')) (fun k' => mask (ix4 b (0 : Fin 1) q k')) k
  rw [funext h0, funext h1]

/-- The scores' block at a grid point, read off an array: row `r` of the block is row `tile · 256 + r` of the array. -/
theorem bias_scores_read (A : Cert.Spec.SS.Idx → EReal) (t : Fin cfg0.N) (b : Fin 2) (h : Fin 8) (q : Fin 2048) (r : Fin 256) (k : Fin 2048)
    (hb : win0_0.index t (0 : Fin 4) = b.val) (hh : win0_0.index t (1 : Fin 4) = h.val)
    (hq : win0_0.index t (2 : Fin 4) * 256 + r.val = q.val) (hk : win0_0.index t (3 : Fin 4) = 0) :
    ((cfg0.win 0).blk t).view.read (Elt Ideal) A (ix4 (0 : Fin 1) (0 : Fin 1) r k) = A (ix4 b h q k) := by
  show A (((cfg0.win 0).blk t).view.emb (ix4 (0 : Fin 1) (0 : Fin 1) r k)) = A (ix4 b h q k)
  refine congrArg A ?_
  funext a; apply Fin.ext
  match a with
  | ⟨0, _⟩ => show win0_0.index t (0 : Fin 4) * 1 + 1 * (0 : Fin 1).val = b.val; omega
  | ⟨1, _⟩ => show win0_0.index t (1 : Fin 4) * 1 + 1 * (0 : Fin 1).val = h.val; omega
  | ⟨2, _⟩ => show win0_0.index t (2 : Fin 4) * 256 + 1 * r.val = q.val; omega
  | ⟨3, _⟩ => show win0_0.index t (3 : Fin 4) * 2048 + 1 * k.val = k.val; omega

/-- The mask's block at a grid point, read off an array: the same rows, of the one head the mask has. -/
theorem bias_mask_read (A : Cert.Spec.SM.Idx → BitVec 32) (t : Fin cfg0.N) (b : Fin 2) (q : Fin 2048) (r : Fin 256) (k : Fin 2048)
    (hb : win0_1.index t (0 : Fin 4) = b.val) (hh : win0_1.index t (1 : Fin 4) = 0)
    (hq : win0_1.index t (2 : Fin 4) * 256 + r.val = q.val) (hk : win0_1.index t (3 : Fin 4) = 0) :
    ((cfg0.win 1).blk t).view.read (Elt Ideal) A (ix4 (0 : Fin 1) (0 : Fin 1) r k) = A (ix4 b (0 : Fin 1) q k) := by
  show A (((cfg0.win 1).blk t).view.emb (ix4 (0 : Fin 1) (0 : Fin 1) r k)) = A (ix4 b (0 : Fin 1) q k)
  refine congrArg A ?_
  funext a; apply Fin.ext
  match a with
  | ⟨0, _⟩ => show win0_1.index t (0 : Fin 4) * 1 + 1 * (0 : Fin 1).val = b.val; omega
  | ⟨1, _⟩ => show win0_1.index t (1 : Fin 4) * 1 + 1 * (0 : Fin 1).val = (0 : Fin 1).val; omega
  | ⟨2, _⟩ => show win0_1.index t (2 : Fin 4) * 256 + 1 * r.val = q.val; omega
  | ⟨3, _⟩ => show win0_1.index t (3 : Fin 4) * 2048 + 1 * k.val = k.val; omega

/-- The output's block at a grid point sits at the same rows of the bias array. -/
theorem bias_out_read (G : Cert.Spec.SS.Idx → EReal) (t : Fin cfg0.N) (b : Fin 2) (h : Fin 8) (q : Fin 2048) (r : Fin 256) (k : Fin 2048)
    (hb : win0_2.index t (0 : Fin 4) = b.val) (hh : win0_2.index t (1 : Fin 4) = h.val)
    (hq : win0_2.index t (2 : Fin 4) * 256 + r.val = q.val) (hk : win0_2.index t (3 : Fin 4) = 0) :
    ((cfg0.win 2).blk t).view.read (Elt Ideal) G (ix4 (0 : Fin 1) (0 : Fin 1) r k) = G (ix4 b h q k) := by
  show G (((cfg0.win 2).blk t).view.emb (ix4 (0 : Fin 1) (0 : Fin 1) r k)) = G (ix4 b h q k)
  refine congrArg G ?_
  funext a; apply Fin.ext
  match a with
  | ⟨0, _⟩ => show win0_2.index t (0 : Fin 4) * 1 + 1 * (0 : Fin 1).val = b.val; omega
  | ⟨1, _⟩ => show win0_2.index t (1 : Fin 4) * 1 + 1 * (0 : Fin 1).val = h.val; omega
  | ⟨2, _⟩ => show win0_2.index t (2 : Fin 4) * 256 + 1 * r.val = q.val; omega
  | ⟨3, _⟩ => show win0_2.index t (3 : Fin 4) * 2048 + 1 * k.val = k.val; omega

/-- What a grid point computes from its blocks of ANY score and mask arrays is its block of their bias array. -/
theorem bias_block_of_arrays (A3 : Cert.Spec.SS.Idx → EReal) (A4 : Cert.Spec.SM.Idx → BitVec 32) (t : Fin cfg0.N) :
    (cfg0.win 2).cut (grid0.coords t)
        (k0_pay1 (F := Ideal) (((cfg0.win 0).blk t).view.read (Elt Ideal) A3) (((cfg0.win 1).blk t).view.read (Elt Ideal) A4))
      = ((cfg0.win 2).blk t).view.read (Elt Ideal) (Cert.Spec.bias A3 A4) := by
  obtain ⟨l0, l1, l2, l3, e00, e01, e02, e03, e10, e11, e12, e13, -, -, -⟩ := bias_index_facts t
  funext y
  obtain ⟨r, k, rfl⟩ := unit_block_split (m := 256) (n := 2048) y
  have hr : r.val < 256 := r.isLt
  refine Eq.trans ?_ (bias_out_read (Cert.Spec.bias A3 A4) t ⟨win0_2.index t (0 : Fin 4), l0⟩ ⟨win0_2.index t (1 : Fin 4), l1⟩
    ⟨win0_2.index t (2 : Fin 4) * 256 + r.val, by omega⟩ r k rfl rfl rfl l3).symm
  exact bias_of_rows A3 A4 (((cfg0.win 0).blk t).view.read (Elt Ideal) A3) (((cfg0.win 1).blk t).view.read (Elt Ideal) A4)
    ⟨win0_2.index t (0 : Fin 4), l0⟩ ⟨win0_2.index t (1 : Fin 4), l1⟩ ⟨win0_2.index t (2 : Fin 4) * 256 + r.val, by omega⟩ r k
    (fun k' => bias_scores_read A3 t _ _ _ r k' e00 e01 (by rw [e02]) e03)
    (fun k' => bias_mask_read A4 t _ _ r k' e10 e11 (by rw [e12]) e13)

/-- An index of the bias array is in a point's output block iff each coordinate is in the block's range on its axis. -/
theorem bias_mem_block (t : Fin cfg0.N) (i : S2x8x2048x2048.Idx) :
    i ∈ ((cfg0.win 2).blk t).view.set ↔ ∀ a : Fin 4, win0_2.index t a * S1x1x256x2048.size a ≤ (i a).val ∧ (i a).val < win0_2.index t a * S1x1x256x2048.size a + S1x1x256x2048.size a := by
  show i ∈ ((View.whole main_v0).slice (win0_2.rect t)).set ↔ _
  rw [View.set_slice_whole, Rect.mem_set_unit]
  exact Iff.rfl

/-- Every index of the bias array is in some point's output block: row `q` of batch `b`, head `h` is in the block of
    the point numbered `b · 64 + h · 8 + q / 256`. -/
theorem bias_cover (i : S2x8x2048x2048.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 2048 := (i 2).isLt
  have hi3 : (i 3).val < 2048 := (i 3).isLt
  have hN : cfg0.N = 128 := N_0
  obtain ⟨t, ht⟩ : ∃ t : Fin cfg0.N, t.val = (i 0).val * 64 + (i 1).val * 8 + (i 2).val / 256 :=
    ⟨⟨(i 0).val * 64 + (i 1).val * 8 + (i 2).val / 256, by rw [hN]; omega⟩, rfl⟩
  obtain ⟨-, -, -, q3, -, -, -, -, -, -, -, -, c0, c1, c2⟩ := bias_index_facts t
  refine ⟨t, flush0_2 t, ?_⟩
  rw [bias_mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 256 ≤ (i 2).val ∧ (i 2).val < win0_2.index t (2 : Fin 4) * 256 + 256; omega
  | ⟨3, _⟩ => show win0_2.index t (3 : Fin 4) * 2048 ≤ (i 3).val ∧ (i 3).val < win0_2.index t (3 : Fin 4) * 2048 + 2048; omega

variable (V : (c : Dev nD) → (b : Ref sig .tc) → Buf (Elt Ideal) ((c : Thread nD τ).loc b))

/-- What a grid point writes back is its block of the bias array of the scores and the mask as the region finds them. -/
theorem bias_flushed (c : Dev nD) (t : Fin cfg0.N) :
    (dat0 (F := Ideal) V c).flushed 2 t
      = ((cfg0.win 2).blk t).view.read (Elt Ideal) (Cert.Spec.bias (V c main_arg3) (V c main_arg4)) := by
  show (cfg0.win 2).cut (grid0.coords t) ((dat0 V c).after 2 t) = _
  rw [after0_2]
  unfold out0_2
  rw [View.canon_unit_zero four_zeros]
  simp only [View.ld_unit_zero (S := S1x1x256x2048) four_zeros]
  unfold iblk0
  exact bias_block_of_arrays (V c main_arg3) (V c main_arg4) t

/-- The bias array after the region: the bias function of the scores and the mask, at every index. -/
theorem bias_array (c : Dev nD) :
    (dat0 (F := Ideal) V c).arrAt 2 cfg0.N = Cert.Spec.bias (V c main_arg3) (V c main_arg4) :=
  (dat0 V c).arrAt_eq_of_cover 2 (Cert.Spec.bias (V c main_arg3) (V c main_arg4)) (fun t _ => bias_flushed V c t) bias_cover

end Cert.KernelIdeal.Blocks

end
-- ==== Proof.AttnBlock.lean ====
/-
  The attention kernel's block at an index: row `r` of the 256×64 output block is the attention of query row `r`
  against all 2048 keys and values of the (batch, head) pair, under row `r` of the bias block.
-/
import proofs.«126612_j17738214933127_1_alg».proof.Proof.Gen.KernelIdeal.Skeleton
import proofs.«126612_j17738214933127_1_alg».proof.Proof.Spec
import proofs.«126612_j17738214933127_1_alg».proof.Proof.LibPlainDot
import proofs.«126612_j17738214933127_1_alg».proof.Proof.LibKeepdims
import proofs.«126612_j17738214933127_1_alg».proof.Proof.RowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Idealize.ShloMosaic Idealize.ShloMosaic.ValueIdx

/-- A plain `M×K` by `K×N` matrix-unit product into the zero accumulator at `(p, c)`: row `p` of the left operand
    against column `c` of the right one. -/
theorem matmul_plain_ix2 (M K N : Nat) {φ₁ φ₂ : FTy} (prec : Option ContractPrecision)
    (l : FVec Ideal (⟨2, ![M, K]⟩ : Shape) φ₁) (w : FVec Ideal (⟨2, ![K, N]⟩ : Shape) φ₂) (p : Fin M) (c : Fin N) :
    FloatOps.matmul (DotDims.plain M K N) prec l w (constant (⟨2, ![M, N]⟩ : Shape) .f32 0x00000000#32) (ix2 p c)
      = ∑ k : Fin K, l (ix2 p k) * w (ix2 k c) :=
  Cert.PlainDot.matmul_zero_apply M K N prec l w (ix2 p c)

/-- The attention scores of the block at query row `r`, key `k`: the query row against key `k` (the keys enter the
    product transposed, so the product's column `k` is key `k`), scaled by `1/8`, plus the bias entry. -/
theorem scores_apply (x0 : Vec Ideal S1x1x256x64 .bf16) (x1 : Vec Ideal S1x1x2048x64 .bf16) (x3 : Vec Ideal S1x1x256x2048 .bf16)
    (r : Fin 256) (k : Fin 2048) :
    addf
        (mulf
          (matmul (φ₁ := .bf16) (φ₂ := .bf16) dot_S256x64_S64x2048_S256x2048_1_0_0_1_n_n none (shapeCast S256x64 x0 shapeCasts_S1x1x256x64_S256x64)
            (transpose S64x2048 [1, 0] (shapeCast S2048x64 x1 shapeCasts_S1x1x2048x64_S2048x64) transposes_S2048x64_p1_0_S64x2048)
            (constant (F := Ideal) S256x2048 .f32 0x00000000#32))
          (broadcast S256x2048 (Scalar.ofBits (F := Ideal) .f32 0x3E000000#32)))
        (extf .f32 (shapeCast S256x2048 x3 shapeCasts_S1x1x256x2048_S256x2048) bitsLt_bf16_f32)
        (ix2 r k)
      = Cert.Spec.scoreRow (fun dd => x0 (ix4 (0 : Fin 1) (0 : Fin 1) r dd)) (fun kk dd => x1 (ix4 (0 : Fin 1) (0 : Fin 1) kk dd))
          (fun kk => x3 (ix4 (0 : Fin 1) (0 : Fin 1) r kk)) k :=
  congrArg₂ (fun s b : EReal => s * Ideal.ofBits .f32 0x3E000000#32 + b)
    ((matmul_plain_ix2 256 64 2048 (φ₁ := .bf16) (φ₂ := .bf16) none (shapeCast S256x64 x0 shapeCasts_S1x1x256x64_S256x64)
        (transpose S64x2048 [1, 0] (shapeCast S2048x64 x1 shapeCasts_S1x1x2048x64_S2048x64) transposes_S2048x64_p1_0_S64x2048) r k).trans
      (Finset.sum_congr rfl fun dd _ => congrArg₂ (fun a b : EReal => a * b)
        (Cert.RowOps.shapeCast_11ab_ab_apply x0 shapeCasts_S1x1x256x64_S256x64 r dd)
        ((transpose_ix2_apply (shapeCast S2048x64 x1 shapeCasts_S1x1x2048x64_S2048x64) transposes_S2048x64_p1_0_S64x2048 dd k).trans
          (Cert.RowOps.shapeCast_11ab_ab_apply x1 shapeCasts_S1x1x2048x64_S2048x64 k dd))))
    (Cert.RowOps.shapeCast_11ab_ab_apply x3 shapeCasts_S1x1x256x2048_S256x2048 r k)

/-- The stored block of the attention kernel at row `r`, feature `d`. -/
theorem attn_block (x0 : Vec Ideal S1x1x256x64 .bf16) (x1 x2 : Vec Ideal S1x1x2048x64 .bf16) (x3 : Vec Ideal S1x1x256x2048 .bf16)
    (r : Fin 256) (d : Fin 64) :
    k1_pay1 (F := Ideal) x0 x1 x2 x3 (ix4 (0 : Fin 1) (0 : Fin 1) r d)
      = Cert.Spec.attnRow (fun dd => x0 (ix4 (0 : Fin 1) (0 : Fin 1) r dd)) (fun kk dd => x1 (ix4 (0 : Fin 1) (0 : Fin 1) kk dd))
          (fun kk dd => x2 (ix4 (0 : Fin 1) (0 : Fin 1) kk dd)) (fun kk => x3 (ix4 (0 : Fin 1) (0 : Fin 1) r kk)) d := by
  unfold k1_pay1
  -- the stored block is the product matrix under two unit axes
  refine (Cert.RowOps.shapeCast_ab_11ab_apply _ shapeCasts_S256x64_S1x1x256x64 0 0 r d).trans ?_
  -- the product at (r, d): row `r` of the weights against column `d` of the values
  refine (matmul_plain_ix2 256 2048 64 (φ₁ := .bf16) (φ₂ := .bf16) none _ _ r d).trans ?_
  refine Finset.sum_congr rfl fun k _ => congrArg₂ (fun a b : EReal => a * b) ?_
    (Cert.RowOps.shapeCast_11ab_ab_apply x2 shapeCasts_S1x1x2048x64_S2048x64 k d)
  -- the weights are the softmax along the rows of the score matrix (the narrowing is the identity here)
  refine (Cert.RowOps.softmax_rows_apply
    (addf
      (mulf
        (matmul (φ₁ := .bf16) (φ₂ := .bf16) dot_S256x64_S64x2048_S256x2048_1_0_0_1_n_n none (shapeCast S256x64 x0 shapeCasts_S1x1x256x64_S256x64)
          (transpose S64x2048 [1, 0] (shapeCast S2048x64 x1 shapeCasts_S1x1x2048x64_S2048x64) transposes_S2048x64_p1_0_S64x2048)
          (constant (F := Ideal) S256x2048 .f32 0x00000000#32))
        (broadcast S256x2048 (Scalar.ofBits (F := Ideal) .f32 0x3E000000#32)))
      (extf .f32 (shapeCast S256x2048 x3 shapeCasts_S1x1x256x2048_S256x2048) bitsLt_bf16_f32))
    reduces_S256x2048_S256 (.inl rfl) rfl (.inl rfl) rfl shapeCasts_S256_S256x1 broadcasts_S256x1_S256x2048 r k).trans ?_
  -- row `r` of the score matrix is the score row of the specification
  exact congrArg (fun row : Fin 2048 → EReal => Cert.Spec.soft row k) (funext fun k' => scores_apply x0 x1 x3 r k')

end Cert.KernelIdeal.Blocks

end
-- ==== Proof.AttnArray.lean ====
/-
  From blocks to the array, for the attention region. The region walks a 2 × 8 × 8 grid of (batch, head, query tile). At
  a point it reads the 256 × 64 block of queries of that (batch, head, tile), ALL 2048 keys and ALL 2048 values of that
  (batch, head), and the 256 × 2048 block of the bias of that (batch, head, tile), and writes the 256 × 64 block of the
  result at the same (batch, head, tile). Row `r` of a query, bias or output block is row `tile · 256 + r` of its array, and
  a key or value block is the (batch, head) slab itself, so the block a point writes is that point's block of ONE function
  of the whole arrays, the attention of the queries against the keys and values under the bias; and every row `q` lies in
  the block of tile `q / 256`, so the blocks fill the array, which therefore ends holding that function.
-/
import proofs.«126612_j17738214933127_1_alg».proof.Proof.Gen.KernelIdeal.Frame
import proofs.«126612_j17738214933127_1_alg».proof.Proof.Spec
import proofs.«126612_j17738214933127_1_alg».proof.Proof.AttnBlock
import proofs.«126612_j17738214933127_1_alg».proof.Proof.BlockIndex
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem
open Idealize.ShloMosaic.Pipeline (Dat)
open Cert.BlockIndex (four_zeros unit_block_split)

/-! ## The attention region: where each window's block sits -/

/-- The five index maps over the 2 × 8 × 8 grid, point by point: the output's block is (batch, head, query tile, 0), and
    so are the queries' and the bias's; the keys' and the values' is (batch, head, 0, 0), all 2048 positions at once; and
    the point numbered `t` is batch `t / 64`, head `t / 8 % 8`, query tile `t % 8`. -/
theorem attn_index_facts : ∀ t : Fin cfg1.N,
    win1_4.index t (0 : Fin 4) < 2 ∧ win1_4.index t (1 : Fin 4) < 8 ∧ win1_4.index t (2 : Fin 4) < 8 ∧ win1_4.index t (3 : Fin 4) = 0
    ∧ win1_0.index t (0 : Fin 4) = win1_4.index t (0 : Fin 4) ∧ win1_0.index t (1 : Fin 4) = win1_4.index t (1 : Fin 4)
    ∧ win1_0.index t (2 : Fin 4) = win1_4.index t (2 : Fin 4) ∧ win1_0.index t (3 : Fin 4) = 0
    ∧ win1_1.index t (0 : Fin 4) = win1_4.index t (0 : Fin 4) ∧ win1_1.index t (1 : Fin 4) = win1_4.index t (1 : Fin 4)
    ∧ win1_1.index t (2 : Fin 4) = 0 ∧ win1_1.index t (3 : Fin 4) = 0
    ∧ win1_2.index t (0 : Fin 4) = win1_4.index t (0 : Fin 4) ∧ win1_2.index t (1 : Fin 4) = win1_4.index t (1 : Fin 4)
    ∧ win1_2.index t (2 : Fin 4) = 0 ∧ win1_2.index t (3 : Fin 4) = 0
    ∧ win1_3.index t (0 : Fin 4) = win1_4.index t (0 : Fin 4) ∧ win1_3.index t (1 : Fin 4) = win1_4.index t (1 : Fin 4)
    ∧ win1_3.index t (2 : Fin 4) = win1_4.index t (2 : Fin 4) ∧ win1_3.index t (3 : Fin 4) = 0
    ∧ win1_4.index t (0 : Fin 4) = t.val / 64 ∧ win1_4.index t (1 : Fin 4) = t.val / 8 % 8 ∧ win1_4.index t (2 : Fin 4) = t.val % 8 :=
  (by decide +kernel : ∀ t : Fin grid1.N, _)

/-- An output block whose query rows and bias rows are rows of the arrays, and whose keys and values are all the keys
    and values of the (batch, head) pair, holds the attention function of those arrays at that row. -/
theorem attn_of_rows (Q K W : Cert.Spec.SQ.Idx → EReal) (B : Cert.Spec.SS.Idx → EReal)
    (x0 : Vec Ideal S1x1x256x64 .bf16) (x1 x2 : Vec Ideal S1x1x2048x64 .bf16) (x3 : Vec Ideal S1x1x256x2048 .bf16)
    (b : Fin 2) (h : Fin 8) (q : Fin 2048) (r : Fin 256) (d : Fin 64)
    (h0 : ∀ dd : Fin 64, x0 (ix4 (0 : Fin 1) (0 : Fin 1) r dd) = Q (ix4 b h q dd))
    (h1 : ∀ (kk : Fin 2048) (dd : Fin 64), x1 (ix4 (0 : Fin 1) (0 : Fin 1) kk dd) = K (ix4 b h kk dd))
    (h2 : ∀ (kk : Fin 2048) (dd : Fin 64), x2 (ix4 (0 : Fin 1) (0 : Fin 1) kk dd) = W (ix4 b h kk dd))
    (h3 : ∀ kk : Fin 2048, x3 (ix4 (0 : Fin 1) (0 : Fin 1) r kk) = B (ix4 b h q kk)) :
    k1_pay1 (F := Ideal) x0 x1 x2 x3 (ix4 (0 : Fin 1) (0 : Fin 1) r d) = Cert.Spec.attn Q K W B (ix4 b h q d) := by
  refine (attn_block x0 x1 x2 x3 r d).trans ?_
  show Cert.Spec.attnRow _ _ _ _ d = Cert.Spec.attnRow (fun dd => Q (ix4 b h q dd)) (fun kk dd => K (ix4 b h kk dd))
    (fun kk dd => W (ix4 b h kk dd)) (fun kk => B (ix4 b h q kk)) d
  rw [funext h0, funext fun kk => funext (h1 kk), funext fun kk => funext (h2 kk), funext h3]

/-- The queries' block at a grid point, read off an array: row `r` of the block is row `tile · 256 + r` of the array. -/
theorem attn_queries_read (A : Cert.Spec.SQ.Idx → EReal) (t : Fin cfg1.N) (b : Fin 2) (h : Fin 8) (q : Fin 2048) (r : Fin 256) (d : Fin 64)
    (hb : win1_0.index t (0 : Fin 4) = b.val) (hh : win1_0.index t (1 : Fin 4) = h.val)
    (hq : win1_0.index t (2 : Fin 4) * 256 + r.val = q.val) (hk : win1_0.index t (3 : Fin 4) = 0) :
    ((cfg1.win 0).blk t).view.read (Elt Ideal) A (ix4 (0 : Fin 1) (0 : Fin 1) r d) = A (ix4 b h q d) := by
  show A (((cfg1.win 0).blk t).view.emb (ix4 (0 : Fin 1) (0 : Fin 1) r d)) = A (ix4 b h q d)
  refine congrArg A ?_
  funext a; apply Fin.ext
  match a with
  | ⟨0, _⟩ => show win1_0.index t (0 : Fin 4) * 1 + 1 * (0 : Fin 1).val = b.val; omega
  | ⟨1, _⟩ => show win1_0.index t (1 : Fin 4) * 1 + 1 * (0 : Fin 1).val = h.val; omega
  | ⟨2, _⟩ => show win1_0.index t (2 : Fin 4) * 256 + 1 * r.val = q.val; omega
  | ⟨3, _⟩ => show win1_0.index t (3 : Fin 4) * 64 + 1 * d.val = d.val; omega

/-- The keys' block at a grid point, read off an array: all 2048 positions of the (batch, head) pair. -/
theorem attn_keys_read (A : Cert.Spec.SQ.Idx → EReal) (t : Fin cfg1.N) (b : Fin 2) (h : Fin 8) (kk : Fin 2048) (d : Fin 64)
    (hb : win1_1.index t (0 : Fin 4) = b.val) (hh : win1_1.index t (1 : Fin 4) = h.val)
    (hq : win1_1.index t (2 : Fin 4) = 0) (hk : win1_1.index t (3 : Fin 4) = 0) :
    ((cfg1.win 1).blk t).view.read (Elt Ideal) A (ix4 (0 : Fin 1) (0 : Fin 1) kk d) = A (ix4 b h kk d) := by
  show A (((cfg1.win 1).blk t).view.emb (ix4 (0 : Fin 1) (0 : Fin 1) kk d)) = A (ix4 b h kk d)
  refine congrArg A ?_
  funext a; apply Fin.ext
  match a with
  | ⟨0, _⟩ => show win1_1.index t (0 : Fin 4) * 1 + 1 * (0 : Fin 1).val = b.val; omega
  | ⟨1, _⟩ => show win1_1.index t (1 : Fin 4) * 1 + 1 * (0 : Fin 1).val = h.val; omega
  | ⟨2, _⟩ => show win1_1.index t (2 : Fin 4) * 2048 + 1 * kk.val = kk.val; omega
  | ⟨3, _⟩ => show win1_1.index t (3 : Fin 4) * 64 + 1 * d.val = d.val; omega

/-- The values' block at a grid point, read off an array: all 2048 positions of the (batch, head) pair. -/
theorem attn_values_read (A : Cert.Spec.SQ.Idx → EReal) (t : Fin cfg1.N) (b : Fin 2) (h : Fin 8) (kk : Fin 2048) (d : Fin 64)
    (hb : win1_2.index t (0 : Fin 4) = b.val) (hh : win1_2.index t (1 : Fin 4) = h.val)
    (hq : win1_2.index t (2 : Fin 4) = 0) (hk : win1_2.index t (3 : Fin 4) = 0) :
    ((cfg1.win 2).blk t).view.read (Elt Ideal) A (ix4 (0 : Fin 1) (0 : Fin 1) kk d) = A (ix4 b h kk d) := by
  show A (((cfg1.win 2).blk t).view.emb (ix4 (0 : Fin 1) (0 : Fin 1) kk d)) = A (ix4 b h kk d)
  refine congrArg A ?_
  funext a; apply Fin.ext
  match a with
  | ⟨0, _⟩ => show win1_2.index t (0 : Fin 4) * 1 + 1 * (0 : Fin 1).val = b.val; omega
  | ⟨1, _⟩ => show win1_2.index t (1 : Fin 4) * 1 + 1 * (0 : Fin 1).val = h.val; omega
  | ⟨2, _⟩ => show win1_2.index t (2 : Fin 4) * 2048 + 1 * kk.val = kk.val; omega
  | ⟨3, _⟩ => show win1_2.index t (3 : Fin 4) * 64 + 1 * d.val = d.val; omega

/-- The bias's block at a grid point, read off an array: the query tile's rows, every key position. -/
theorem attn_bias_read (A : Cert.Spec.SS.Idx → EReal) (t : Fin cfg1.N) (b : Fin 2) (h : Fin 8) (q : Fin 2048) (r : Fin 256) (kk : Fin 2048)
    (hb : win1_3.index t (0 : Fin 4) = b.val) (hh : win1_3.index t (1 : Fin 4) = h.val)
    (hq : win1_3.index t (2 : Fin 4) * 256 + r.val = q.val) (hk : win1_3.index t (3 : Fin 4) = 0) :
    ((cfg1.win 3).blk t).view.read (Elt Ideal) A (ix4 (0 : Fin 1) (0 : Fin 1) r kk) = A (ix4 b h q kk) := by
  show A (((cfg1.win 3).blk t).view.emb (ix4 (0 : Fin 1) (0 : Fin 1) r kk)) = A (ix4 b h q kk)
  refine congrArg A ?_
  funext a; apply Fin.ext
  match a with
  | ⟨0, _⟩ => show win1_3.index t (0 : Fin 4) * 1 + 1 * (0 : Fin 1).val = b.val; omega
  | ⟨1, _⟩ => show win1_3.index t (1 : Fin 4) * 1 + 1 * (0 : Fin 1).val = h.val; omega
  | ⟨2, _⟩ => show win1_3.index t (2 : Fin 4) * 256 + 1 * r.val = q.val; omega
  | ⟨3, _⟩ => show win1_3.index t (3 : Fin 4) * 2048 + 1 * kk.val = kk.val; omega

/-- The output's block at a grid point sits at the same rows of the result array. -/
theorem attn_out_read (G : Cert.Spec.SQ.Idx → EReal) (t : Fin cfg1.N) (b : Fin 2) (h : Fin 8) (q : Fin 2048) (r : Fin 256) (d : Fin 64)
    (hb : win1_4.index t (0 : Fin 4) = b.val) (hh : win1_4.index t (1 : Fin 4) = h.val)
    (hq : win1_4.index t (2 : Fin 4) * 256 + r.val = q.val) (hk : win1_4.index t (3 : Fin 4) = 0) :
    ((cfg1.win 4).blk t).view.read (Elt Ideal) G (ix4 (0 : Fin 1) (0 : Fin 1) r d) = G (ix4 b h q d) := by
  show G (((cfg1.win 4).blk t).view.emb (ix4 (0 : Fin 1) (0 : Fin 1) r d)) = G (ix4 b h q d)
  refine congrArg G ?_
  funext a; apply Fin.ext
  match a with
  | ⟨0, _⟩ => show win1_4.index t (0 : Fin 4) * 1 + 1 * (0 : Fin 1).val = b.val; omega
  | ⟨1, _⟩ => show win1_4.index t (1 : Fin 4) * 1 + 1 * (0 : Fin 1).val = h.val; omega
  | ⟨2, _⟩ => show win1_4.index t (2 : Fin 4) * 256 + 1 * r.val = q.val; omega
  | ⟨3, _⟩ => show win1_4.index t (3 : Fin 4) * 64 + 1 * d.val = d.val; omega

/-- What a grid point computes from its blocks of ANY query, key, value and bias arrays is its block of their attention array. -/
theorem attn_block_of_arrays (A1 A2 A3 : Cert.Spec.SQ.Idx → EReal) (A0 : Cert.Spec.SS.Idx → EReal) (t : Fin cfg1.N) :
    (cfg1.win 4).cut (grid1.coords t)
        (k1_pay1 (F := Ideal) (((cfg1.win 0).blk t).view.read (Elt Ideal) A1) (((cfg1.win 1).blk t).view.read (Elt Ideal) A2)
          (((cfg1.win 2).blk t).view.read (Elt Ideal) A3) (((cfg1.win 3).blk t).view.read (Elt Ideal) A0))
      = ((cfg1.win 4).blk t).view.read (Elt Ideal) (Cert.Spec.attn A1 A2 A3 A0) := by
  obtain ⟨l0, l1, l2, l3, e00, e01, e02, e03, e10, e11, e12, e13, e20, e21, e22, e23, e30, e31, e32, e33, -, -, -⟩ := attn_index_facts t
  funext y
  obtain ⟨r, d, rfl⟩ := unit_block_split (m := 256) (n := 64) y
  have hr : r.val < 256 := r.isLt
  refine Eq.trans ?_ (attn_out_read (Cert.Spec.attn A1 A2 A3 A0) t ⟨win1_4.index t (0 : Fin 4), l0⟩ ⟨win1_4.index t (1 : Fin 4), l1⟩
    ⟨win1_4.index t (2 : Fin 4) * 256 + r.val, by omega⟩ r d rfl rfl rfl l3).symm
  exact attn_of_rows A1 A2 A3 A0 (((cfg1.win 0).blk t).view.read (Elt Ideal) A1) (((cfg1.win 1).blk t).view.read (Elt Ideal) A2)
    (((cfg1.win 2).blk t).view.read (Elt Ideal) A3) (((cfg1.win 3).blk t).view.read (Elt Ideal) A0)
    ⟨win1_4.index t (0 : Fin 4), l0⟩ ⟨win1_4.index t (1 : Fin 4), l1⟩ ⟨win1_4.index t (2 : Fin 4) * 256 + r.val, by omega⟩ r d
    (fun dd => attn_queries_read A1 t _ _ _ r dd e00 e01 (by rw [e02]) e03)
    (fun kk dd => attn_keys_read A2 t _ _ kk dd e10 e11 e12 e13)
    (fun kk dd => attn_values_read A3 t _ _ kk dd e20 e21 e22 e23)
    (fun kk => attn_bias_read A0 t _ _ _ r kk e30 e31 (by rw [e32]) e33)

/-- An index of the result array is in a point's output block iff each coordinate is in the block's range on its axis. -/
theorem attn_mem_block (t : Fin cfg1.N) (i : S2x8x2048x64.Idx) :
    i ∈ ((cfg1.win 4).blk t).view.set ↔ ∀ a : Fin 4, win1_4.index t a * S1x1x256x64.size a ≤ (i a).val ∧ (i a).val < win1_4.index t a * S1x1x256x64.size a + S1x1x256x64.size a := by
  show i ∈ ((View.whole main_v4).slice (win1_4.rect t)).set ↔ _
  rw [View.set_slice_whole, Rect.mem_set_unit]
  exact Iff.rfl

/-- Every index of the result array is in some point's output block: row `q` of batch `b`, head `h` is in the block of
    the point numbered `b · 64 + h · 8 + q / 256`. -/
theorem attn_cover (i : S2x8x2048x64.Idx) :
    ∃ t : Fin cfg1.N, (cfg1.win 4).flush t = true ∧ i ∈ ((cfg1.win 4).blk t).view.set := by
  have hi0 : (i 0).val < 2 := (i 0).isLt
  have hi1 : (i 1).val < 8 := (i 1).isLt
  have hi2 : (i 2).val < 2048 := (i 2).isLt
  have hi3 : (i 3).val < 64 := (i 3).isLt
  have hN : cfg1.N = 128 := N_1
  obtain ⟨t, ht⟩ : ∃ t : Fin cfg1.N, t.val = (i 0).val * 64 + (i 1).val * 8 + (i 2).val / 256 :=
    ⟨⟨(i 0).val * 64 + (i 1).val * 8 + (i 2).val / 256, by rw [hN]; omega⟩, rfl⟩
  obtain ⟨-, -, -, q3, -, -, -, -, -, -, -, -, -, -, -, -, -, -, -, -, c0, c1, c2⟩ := attn_index_facts t
  refine ⟨t, flush1_4 t, ?_⟩
  rw [attn_mem_block]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 1 ≤ (i 1).val ∧ (i 1).val < win1_4.index t (1 : Fin 4) * 1 + 1; omega
  | ⟨2, _⟩ => show win1_4.index t (2 : Fin 4) * 256 ≤ (i 2).val ∧ (i 2).val < win1_4.index t (2 : Fin 4) * 256 + 256; omega
  | ⟨3, _⟩ => show win1_4.index t (3 : Fin 4) * 64 ≤ (i 3).val ∧ (i 3).val < win1_4.index t (3 : Fin 4) * 64 + 64; omega

variable (V : (c : Dev nD) → (b : Ref sig .tc) → Buf (Elt Ideal) ((c : Thread nD τ).loc b))

/-- What a grid point writes back is its block of the attention array of the queries, keys, values and bias as the region
    finds them. -/
theorem attn_flushed (c : Dev nD) (t : Fin cfg1.N) :
    (dat1 (F := Ideal) V c).flushed 4 t
      = ((cfg1.win 4).blk t).view.read (Elt Ideal) (Cert.Spec.attn (V c main_v1) (V c main_v2) (V c main_v3) (V c main_v0)) := by
  show (cfg1.win 4).cut (grid1.coords t) ((dat1 V c).after 4 t) = _
  rw [after1_4]
  unfold out1_4
  rw [View.canon_unit_zero four_zeros]
  simp only [View.ld_unit_zero (S := S1x1x256x64) four_zeros, View.ld_unit_zero (S := S1x1x2048x64) four_zeros,
    View.ld_unit_zero (S := S1x1x256x2048) four_zeros]
  unfold iblk1
  exact attn_block_of_arrays (V c main_v1) (V c main_v2) (V c main_v3) (V c main_v0) t

/-- The result array after the region: the attention function of the queries, keys, values and bias, at every index. -/
theorem attn_array (c : Dev nD) :
    (dat1 (F := Ideal) V c).arrAt 4 cfg1.N = Cert.Spec.attn (V c main_v1) (V c main_v2) (V c main_v3) (V c main_v0) :=
  (dat1 V c).arrAt_eq_of_cover 4 (Cert.Spec.attn (V c main_v1) (V c main_v2) (V c main_v3) (V c main_v0))
    (fun t _ => attn_flushed V c t) attn_cover

end Cert.KernelIdeal.Blocks

end
-- ==== Proof.RefRowMax.lean ====
/-
  The reference's row maxima.

  A maximum-reduce over the key axis of a batch × head × query × key array, started from the word of `-∞`, is at
  (b, h, q) the fold of `max` over the keys of the row (b, h, q, ·): the source index over (b, h, q) with key `k`
  inserted is (b, h, q, k). That is the specification's row maximum of the row. A further maximum against `-∞`
  leaves it unchanged.
-/
import proofs.«126612_j17738214933127_1_alg».proof.Proof.Gen.ReferenceIdeal.Read
import proofs.«126612_j17738214933127_1_alg».proof.Proof.Spec

noncomputable section

namespace Cert.ReferenceIdeal.RefValue

open Cert.ReferenceIdeal Cert.ReferenceIdeal.Gen Idealize.ShloMosaic Idealize.ShloMosaic.ValueIdx

/-- The array shape batch × head × query × key, and its rows' shape batch × head × query. -/
abbrev Scores := (⟨S2x8x2048x2048, .f32⟩ : BufTy).Contents (Elt Ideal)

/-- The source index over (b, h, q) with key `k` inserted on the last axis is (b, h, q, k). -/
theorem lift_key (hr : S2x8x2048x2048.Reduces [3] S2x8x2048) (b : Fin 2) (h : Fin 8) (q k : Fin 2048) :
    hr.lift (ix3 b h q) k = ix4 b h q k :=
  funext fun a => Fin.ext (by
    match a with
    | ⟨0, _⟩ => rfl
    | ⟨1, _⟩ => rfl
    | ⟨2, _⟩ => rfl
    | ⟨3, _⟩ => rfl)

/-- A maximum-reduce over the keys from an initial scalar holding the word of `-∞` is, at (b, h, q), the row maximum
    of the row (b, h, q, ·). -/
theorem reduce_max_row (y : Scores) (init : (⟨S_, .f32⟩ : BufTy).Contents (Elt Ideal))
    (hinit : init (Shape.Idx.first h_S_) = Ideal.ofBits .f32 0xFF800000#32) (b : Fin 2) (h : Fin 8) (q : Fin 2048) :
    Host.reduce (FloatOps.maximumf (F := Ideal) (φ := .f32)) y init reducesTo_S2x8x2048x2048_S2x8x2048_d3 h_S_ (ix3 b h q)
      = Cert.Spec.rowMax (fun k => y (ix4 b h q k)) := by
  have hr : S2x8x2048x2048.Reduces [3] S2x8x2048 := by decide
  refine (Host.reduce_eq_fold_single (FloatOps.maximumf (F := Ideal) (φ := .f32)) y init
    reducesTo_S2x8x2048x2048_S2x8x2048_d3 hr h_S_ (ix3 b h q)).trans ?_
  rw [hinit]
  have e : (y ∘ hr.lift (ix3 b h q)) = fun k : Fin 2048 => y (ix4 b h q k) :=
    funext fun k => congrArg y (lift_key hr b h q k)
  rw [e]
  rfl

end Cert.ReferenceIdeal.RefValue

end
-- ==== Proof.RefBias.lean ====
/-
  The reference's bias: the softmax of the masked structure scores.

  At (b, h, q, k) the masked score is the structure score, or the constant `-1e9` where the mask word at (b, 0, q, k)
  is zero. The reference subtracts the row's maximum (taken once more against `-∞`, which changes nothing),
  exponentiates, sums the row from the word of `0` (which adds nothing), and divides: the specification's softmax of the
  row of masked scores, which is its bias array.
-/
import proofs.«126612_j17738214933127_1_alg».proof.Proof.RefRowMax

noncomputable section

namespace Cert.ReferenceIdeal.RefValue

open Cert.ReferenceIdeal Cert.ReferenceIdeal.Gen Idealize.ShloMosaic Idealize.ShloMosaic.ValueIdx

variable (x3 : Scores) (x4 : (⟨S2x1x2048x2048, .i32⟩ : BufTy).Contents (Elt Ideal))

/-- The masked score at (b, h, q, k): the mask is shared by the heads, so it is read at (b, 0, q, k). -/
theorem masked_at (b : Fin 2) (h : Fin 8) (q k : Fin 2048) :
    Read.val_main_v5 (F := Ideal) x3 x4 (ix4 b h q k)
      = Cert.Spec.masked (x4 (ix4 b (0 : Fin 1) q k)) (x3 (ix4 b h q k)) := by
  have e : Read.idx_main_call0_v0 (ix4 b h q k) = ix4 b (0 : Fin 1) q k :=
    funext fun a => Fin.ext (by
      match a with
      | ⟨0, _⟩ => rfl
      | ⟨1, _⟩ => rfl
      | ⟨2, _⟩ => rfl
      | ⟨3, _⟩ => rfl)
  rw [Read.val_main_v5_apply, Read.val_main_call0_v0_apply, Read.val_main_v4_apply, Read.val_main_v3_apply,
    Read.val_main_c_apply, Read.val_main_call0_v1_apply, Read.val_main_cst_0_apply, e]
  rfl

/-- The row of masked scores over (b, h, q). -/
def maskedRow (b : Fin 2) (h : Fin 8) (q : Fin 2048) : Fin 2048 → EReal :=
  fun k => Read.val_main_v5 (F := Ideal) x3 x4 (ix4 b h q k)

/-- The row maximum the reference subtracts is the maximum of the row of masked scores. -/
theorem masked_max_at (b : Fin 2) (h : Fin 8) (q : Fin 2048) :
    Read.val_main_v8 (F := Ideal) x3 x4 (ix3 b h q) = Cert.Spec.rowMax (maskedRow x3 x4 b h q) := by
  rw [Read.val_main_v8_apply, Read.val_main_v7_apply, Read.val_main_cst_2_apply]
  refine (Cert.Spec.max_negInf _).trans ?_
  unfold Read.val_main_v6
  exact reduce_max_row _ _ (Read.val_main_cst_1_apply _) b h q

/-- The exponential of a masked score less its row's maximum. -/
theorem masked_exp_at (b : Fin 2) (h : Fin 8) (q k : Fin 2048) :
    Read.val_main_v12 (F := Ideal) x3 x4 (ix4 b h q k)
      = Ideal.exp (maskedRow x3 x4 b h q k - Cert.Spec.rowMax (maskedRow x3 x4 b h q)) := by
  have e : Read.idx_main_v9 (Read.idx_main_v10 (ix4 b h q k)) = ix3 b h q :=
    funext fun a => Fin.ext (by
      match a with
      | ⟨0, _⟩ => rfl
      | ⟨1, _⟩ => rfl
      | ⟨2, _⟩ => rfl)
  rw [Read.val_main_v12_apply, Read.val_main_v11_apply, Read.val_main_v10_apply, Read.val_main_v9_apply, e,
    masked_max_at]
  rfl

/-- The row sum of those exponentials: the sum starts from the word of `0`. -/
theorem masked_sum_at (b : Fin 2) (h : Fin 8) (q : Fin 2048) :
    Read.val_main_v13 (F := Ideal) x3 x4 (ix3 b h q)
      = ∑ k : Fin 2048, Ideal.exp (maskedRow x3 x4 b h q k - Cert.Spec.rowMax (maskedRow x3 x4 b h q)) := by
  rw [Read.val_main_v13_apply, Read.val_main_cst_3_apply]
  refine (congrArg (· + _) Cert.Spec.zero_word).trans ((zero_add _).trans ?_)
  refine Finset.sum_congr rfl fun k _ => ?_
  have e : Read.idx_main_v13 (ix3 b h q) k = ix4 b h q k :=
    funext fun a => Fin.ext (by
      match a with
      | ⟨0, _⟩ => rfl
      | ⟨1, _⟩ => rfl
      | ⟨2, _⟩ => rfl
      | ⟨3, _⟩ => rfl)
  rw [e]
  exact masked_exp_at x3 x4 b h q k

/-- The reference's bias at (b, h, q, k) is the softmax of the row of masked scores at `k`. -/
theorem bias_soft_at (b : Fin 2) (h : Fin 8) (q k : Fin 2048) :
    Read.val_main_v16 (F := Ideal) x3 x4 (ix4 b h q k) = Cert.Spec.soft (maskedRow x3 x4 b h q) k := by
  have e : Read.idx_main_v14 (Read.idx_main_v15 (ix4 b h q k)) = ix3 b h q :=
    funext fun a => Fin.ext (by
      match a with
      | ⟨0, _⟩ => rfl
      | ⟨1, _⟩ => rfl
      | ⟨2, _⟩ => rfl)
  rw [Read.val_main_v16_apply, Read.val_main_v15_apply, Read.val_main_v14_apply, e, masked_sum_at, masked_exp_at]
  rfl

/-- The reference's bias array is the specification's. -/
theorem bias_eq : Read.val_main_v16 (F := Ideal) x3 x4 = Cert.Spec.bias x3 x4 := by
  funext i
  obtain ⟨b, h, q, k, rfl⟩ : ∃ (b : Fin 2) (h : Fin 8) (q : Fin 2048) (k : Fin 2048), i = ix4 b h q k :=
    ⟨i 0, i 1, i 2, i 3, eq_ix4 i⟩
  rw [bias_soft_at]
  have er : maskedRow x3 x4 b h q
      = fun k' => Cert.Spec.masked (x4 (ix4 b (0 : Fin 1) q k')) (x3 (ix4 b h q k')) :=
    funext fun k' => masked_at x3 x4 b h q k'
  rw [er]
  rfl

end Cert.ReferenceIdeal.RefValue

end
-- ==== Proof.RefScores.lean ====
/-
  The reference's attention weights: the softmax of the scaled inner products plus the bias.

  At (b, h, q, k) the score is the inner product over the 64 features of the query (b, h, q, ·) with the key
  (b, h, k, ·), divided by `8` (the same extended real as its product with `1/8`), plus the bias at (b, h, q, k). The
  softmax over the keys of the row is spelt exactly as the bias's was: the row maximum (once more against `-∞`), the
  exponentials, their sum from the word of `0`, the quotient.
-/
import proofs.«126612_j17738214933127_1_alg».proof.Proof.RefRowMax

noncomputable section

namespace Cert.ReferenceIdeal.RefValue

open Cert.ReferenceIdeal Cert.ReferenceIdeal.Gen Idealize.ShloMosaic Idealize.ShloMosaic.ValueIdx

variable (x0 x1 : (⟨S2x8x2048x64, .f32⟩ : BufTy).Contents (Elt Ideal)) (x3 : Scores)
  (x4 : (⟨S2x1x2048x2048, .i32⟩ : BufTy).Contents (Elt Ideal))

/-- The score at (b, h, q, k): the specification's score row over the reference's own bias row. -/
theorem score_at (b : Fin 2) (h : Fin 8) (q k : Fin 2048) :
    Read.val_main_v17 (F := Ideal) x0 x1 x3 x4 (ix4 b h q k)
      = Cert.Spec.scoreRow (fun d => x0 (ix4 b h q d)) (fun k' d => x1 (ix4 b h k' d))
          (fun k' => Read.val_main_v16 (F := Ideal) x3 x4 (ix4 b h q k')) k := by
  have es : (∑ d : Fin 64, x0 (Read.lidx_main_v0 (ix4 b h q k) d) * x1 (Read.ridx_main_v0 (ix4 b h q k) d))
      = ∑ d : Fin 64, x0 (ix4 b h q d) * x1 (ix4 b h k d) :=
    Finset.sum_congr rfl fun d _ => by
      have el : Read.lidx_main_v0 (ix4 b h q k) d = ix4 b h q d :=
        funext fun a => Fin.ext (by
          match a with
          | ⟨0, _⟩ => rfl
          | ⟨1, _⟩ => rfl
          | ⟨2, _⟩ => rfl
          | ⟨3, _⟩ => rfl)
      have er : Read.ridx_main_v0 (ix4 b h q k) d = ix4 b h k d :=
        funext fun a => Fin.ext (by
          match a with
          | ⟨0, _⟩ => rfl
          | ⟨1, _⟩ => rfl
          | ⟨2, _⟩ => rfl
          | ⟨3, _⟩ => rfl)
      rw [el, er]
  rw [Read.val_main_v17_apply, Read.val_main_v2_apply, Read.val_main_v1_apply, Read.val_main_cst_apply,
    Read.val_main_v0_apply, es]
  exact congrArg (· + Read.val_main_v16 (F := Ideal) x3 x4 (ix4 b h q k)) (Cert.Spec.div_eight _)

/-- The row of scores over (b, h, q). -/
def scoresRow (b : Fin 2) (h : Fin 8) (q : Fin 2048) : Fin 2048 → EReal :=
  fun k => Read.val_main_v17 (F := Ideal) x0 x1 x3 x4 (ix4 b h q k)

/-- The row maximum the reference subtracts is the maximum of the row of scores. -/
theorem score_max_at (b : Fin 2) (h : Fin 8) (q : Fin 2048) :
    Read.val_main_v20 (F := Ideal) x0 x1 x3 x4 (ix3 b h q) = Cert.Spec.rowMax (scoresRow x0 x1 x3 x4 b h q) := by
  rw [Read.val_main_v20_apply, Read.val_main_v19_apply, Read.val_main_cst_5_apply]
  refine (Cert.Spec.max_negInf _).trans ?_
  unfold Read.val_main_v18
  exact reduce_max_row _ _ (Read.val_main_cst_4_apply _) b h q

/-- The exponential of a score less its row's maximum. -/
theorem score_exp_at (b : Fin 2) (h : Fin 8) (q k : Fin 2048) :
    Read.val_main_v24 (F := Ideal) x0 x1 x3 x4 (ix4 b h q k)
      = Ideal.exp (scoresRow x0 x1 x3 x4 b h q k - Cert.Spec.rowMax (scoresRow x0 x1 x3 x4 b h q)) := by
  have e : Read.idx_main_v21 (Read.idx_main_v22 (ix4 b h q k)) = ix3 b h q :=
    funext fun a => Fin.ext (by
      match a with
      | ⟨0, _⟩ => rfl
      | ⟨1, _⟩ => rfl
      | ⟨2, _⟩ => rfl)
  rw [Read.val_main_v24_apply, Read.val_main_v23_apply, Read.val_main_v22_apply, Read.val_main_v21_apply, e,
    score_max_at]
  rfl

/-- The row sum of those exponentials: the sum starts from the word of `0`. -/
theorem score_sum_at (b : Fin 2) (h : Fin 8) (q : Fin 2048) :
    Read.val_main_v25 (F := Ideal) x0 x1 x3 x4 (ix3 b h q)
      = ∑ k : Fin 2048,
          Ideal.exp (scoresRow x0 x1 x3 x4 b h q k - Cert.Spec.rowMax (scoresRow x0 x1 x3 x4 b h q)) := by
  rw [Read.val_main_v25_apply, Read.val_main_cst_6_apply]
  refine (congrArg (· + _) Cert.Spec.zero_word).trans ((zero_add _).trans ?_)
  refine Finset.sum_congr rfl fun k _ => ?_
  have e : Read.idx_main_v25 (ix3 b h q) k = ix4 b h q k :=
    funext fun a => Fin.ext (by
      match a with
      | ⟨0, _⟩ => rfl
      | ⟨1, _⟩ => rfl
      | ⟨2, _⟩ => rfl
      | ⟨3, _⟩ => rfl)
  rw [e]
  exact score_exp_at x0 x1 x3 x4 b h q k

/-- The reference's attention weight at (b, h, q, k) is the softmax of the row of scores at `k`. -/
theorem weight_at (b : Fin 2) (h : Fin 8) (q k : Fin 2048) :
    Read.val_main_v28 (F := Ideal) x0 x1 x3 x4 (ix4 b h q k) = Cert.Spec.soft (scoresRow x0 x1 x3 x4 b h q) k := by
  have e : Read.idx_main_v26 (Read.idx_main_v27 (ix4 b h q k)) = ix3 b h q :=
    funext fun a => Fin.ext (by
      match a with
      | ⟨0, _⟩ => rfl
      | ⟨1, _⟩ => rfl
      | ⟨2, _⟩ => rfl)
  rw [Read.val_main_v28_apply, Read.val_main_v27_apply, Read.val_main_v26_apply, e, score_sum_at, score_exp_at]
  rfl

end Cert.ReferenceIdeal.RefValue

end
-- ==== Proof.RefValue.lean ====
/-
  The reference computes the specification's masked-bias attention.

  Its result at (b, h, q, d) is the sum over the keys `k` of the attention weight at (b, h, q, k) times the value at
  (b, h, k, d). The weights are the softmax of the row of scores; the scores are the scaled inner products plus the
  bias; the bias is the softmax of the masked structure scores. Row by row these are the specification's terms.
-/
import proofs.«126612_j17738214933127_1_alg».proof.Proof.RefBias
import proofs.«126612_j17738214933127_1_alg».proof.Proof.RefScores

noncomputable section

namespace Cert.ReferenceIdeal.RefValue

open Cert.ReferenceIdeal Idealize.ShloMosaic Idealize.ShloMosaic.ValueIdx

/-- The row of scores over (b, h, q) is the specification's score row over the specification's bias. -/
theorem scoresRow_eq (x0 x1 : (⟨S2x8x2048x64, .f32⟩ : BufTy).Contents (Elt Ideal)) (x3 : Scores)
    (x4 : (⟨S2x1x2048x2048, .i32⟩ : BufTy).Contents (Elt Ideal)) (b : Fin 2) (h : Fin 8) (q : Fin 2048) :
    scoresRow x0 x1 x3 x4 b h q
      = Cert.Spec.scoreRow (fun d => x0 (ix4 b h q d)) (fun k' d => x1 (ix4 b h k' d))
          (fun k' => Cert.Spec.bias x3 x4 (ix4 b h q k')) := by
  funext k
  refine (score_at x0 x1 x3 x4 b h q k).trans ?_
  rw [bias_eq]

theorem ref_value (x0 x1 x2 : (⟨S2x8x2048x64, .f32⟩ : BufTy).Contents (Elt Ideal)) (x3 : (⟨S2x8x2048x2048, .f32⟩ : BufTy).Contents (Elt Ideal))
    (x4 : (⟨S2x1x2048x2048, .i32⟩ : BufTy).Contents (Elt Ideal)) :
    Cert.ReferenceIdeal.Read.val_main_v29 (F := Ideal) x0 x1 x2 x3 x4 = Cert.Spec.result x0 x1 x2 x3 x4 := by
  funext i
  obtain ⟨b, h, q, d, rfl⟩ : ∃ (b : Fin 2) (h : Fin 8) (q : Fin 2048) (d : Fin 64), i = ix4 b h q d :=
    ⟨i 0, i 1, i 2, i 3, eq_ix4 i⟩
  rw [Read.val_main_v29_apply]
  have es : (∑ k : Fin 2048, Read.val_main_v28 (F := Ideal) x0 x1 x3 x4 (Read.lidx_main_v29 (ix4 b h q d) k)
        * x2 (Read.ridx_main_v29 (ix4 b h q d) k))
      = ∑ k : Fin 2048, Cert.Spec.soft (scoresRow x0 x1 x3 x4 b h q) k * x2 (ix4 b h k d) :=
    Finset.sum_congr rfl fun k _ => by
      have el : Read.lidx_main_v29 (ix4 b h q d) k = ix4 b h q k :=
        funext fun a => Fin.ext (by
          match a with
          | ⟨0, _⟩ => rfl
          | ⟨1, _⟩ => rfl
          | ⟨2, _⟩ => rfl
          | ⟨3, _⟩ => rfl)
      have er : Read.ridx_main_v29 (ix4 b h q d) k = ix4 b h k d :=
        funext fun a => Fin.ext (by
          match a with
          | ⟨0, _⟩ => rfl
          | ⟨1, _⟩ => rfl
          | ⟨2, _⟩ => rfl
          | ⟨3, _⟩ => rfl)
      rw [el, er, weight_at]
  rw [es, scoresRow_eq]
  rfl

end Cert.ReferenceIdeal.RefValue

end
-- ==== Proof.lean ====
/-
  The certificate: a two-kernel masked-bias attention against its jnp reference.

  The kernel program computes, in a first kernel, the BIAS — for every batch, head and query row the softmax over the
  key positions of the structure scores, with `-1e9` written wherever the (head-shared) mask is zero — and in a second
  kernel, per block of 256 query rows, the attention scores `(q · kᵀ) · 0.125 + bias`, their softmax over the keys and
  its product with the values. The reference computes the same with whole-array operations, spelling the scale as a
  division by `8`. At the ideal values both are one function of the five arguments (Proof/Spec.lean): the changes of
  float format are the identity, a matrix-unit product into a zero accumulator and the host's contraction are the same
  sums, a lane reduction and the host's reduction are the same fold or sum, and a quotient by `8` is the product with
  `1/8` on every extended real — no finiteness of the inputs is used.

  The three frames are the generated ones (the reference's is its generated run with the result dropped); the
  idealization rewrote nothing, so `preserves` is trivial; `algebraic` is assembled in Proof/Algebraic.lean from the
  kernel program's run with its result named (Proof/KernelRun.lean), the fold of buffer contents read back
  (Proof/KernelFold.lean), what each region leaves in its output array (Proof/BiasArray.lean, Proof/AttnArray.lean over
  the blocks' values Proof/BiasBlock.lean, Proof/AttnBlock.lean), and the reference's value (Proof/RefValue.lean).
-/
import proofs.«126612_j17738214933127_1_alg».proof.Defs
import proofs.«126612_j17738214933127_1_alg».proof.Proof.Gen.Kernel
import proofs.«126612_j17738214933127_1_alg».proof.Proof.Gen.Kernel.Skeleton
import proofs.«126612_j17738214933127_1_alg».proof.Proof.Gen.Kernel.Launch
import proofs.«126612_j17738214933127_1_alg».proof.Proof.Gen.Kernel.Points
import proofs.«126612_j17738214933127_1_alg».proof.Proof.Gen.Kernel.Frame
import proofs.«126612_j17738214933127_1_alg».proof.Proof.Gen.KernelIdeal
import proofs.«126612_j17738214933127_1_alg».proof.Proof.Gen.KernelIdeal.Skeleton
import proofs.«126612_j17738214933127_1_alg».proof.Proof.Gen.KernelIdeal.Launch
import proofs.«126612_j17738214933127_1_alg».proof.Proof.Gen.KernelIdeal.Points
import proofs.«126612_j17738214933127_1_alg».proof.Proof.Gen.KernelIdeal.Frame
import proofs.«126612_j17738214933127_1_alg».proof.Proof.Gen.ReferenceIdeal
import proofs.«126612_j17738214933127_1_alg».proof.Proof.Gen.Pre_finite_inputs
import proofs.«126612_j17738214933127_1_alg».proof.Proof.Gen.ReferenceIdeal.Run
import proofs.«126612_j17738214933127_1_alg».proof.Proof.Gen.ReferenceIdeal.Read
import proofs.«126612_j17738214933127_1_alg».proof.Proof.Algebraic
import proofs.«126612_j17738214933127_1_alg».proof.Proof.BiasArray
import proofs.«126612_j17738214933127_1_alg».proof.Proof.AttnArray
import proofs.«126612_j17738214933127_1_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic_of Cert.KernelIdeal.Blocks.bias_array Cert.KernelIdeal.Blocks.attn_array Cert.ReferenceIdeal.RefValue.ref_value⟩

end Cert.Proof

end
